-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S50000 : Shape := ⟨1, ![50000]⟩
abbrev S2x64 : Shape := ⟨2, ![2, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x2 .f32) (main_arg1 : IVec S2x800000 32) (main_arg2 : IVec S50000 32) (main_arg3 : FVec F S2x64 .f32) (main_arg4 : FVec F S64 .f32) (main_arg5 : FVec F S64x64 .f32) (main_arg6 : FVec F S64 .f32) (main_arg7 : FVec F S64x64 .f32) (main_arg8 : FVec F S64 .f32) (main_arg9 : FVec F S64x2 .f32) (main_arg10 : FVec F S2 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S2x64 .f32 := Host.absf main_arg3
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x2 : Shape := ⟨2, ![50000, 2]⟩
abbrev S2x800000 : Shape := ⟨2, ![2, 800000]⟩
abbrev S50000 : Shape := ⟨1, ![50000]⟩
abbrev S2x64 : Shape := ⟨2, ![2, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x64 : Shape := ⟨2, ![50000, 64]⟩
abbrev S5000x2 : Shape := ⟨2, ![5000, 2]⟩
abbrev S5000x1 : Shape := ⟨2, ![5000, 1]⟩
abbrev S5000x64 : Shape := ⟨2, ![5000, 64]⟩
abbrev S800000x64 : Shape := ⟨2, ![800000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S1x2 : Shape := ⟨2, ![1, 2]⟩
abbrev S256x2 : Shape := ⟨2, ![256, 2]⟩

abbrev nBuf : Space → Nat
  | .hbm => 85
  | .vmem => 41
  | .smem => 0
  | _ => 0

abbrev bufTy : (tb : Table) → Fin (tcTables nBuf tb) → BufTy
  | .hbm, ⟨0, _⟩ => ⟨S50000x2, .f32⟩
  | .hbm, ⟨1, _⟩ => ⟨S2x800000, .i32⟩
  | .hbm, ⟨2, _⟩ => ⟨S50000, .i32⟩
  | .hbm, ⟨3, _⟩ => ⟨S2x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S_, .f32⟩
  | .hbm, ⟨73, _⟩ => ⟨S256x64, .f32⟩
  | .hbm, ⟨74, _⟩ => ⟨S50000x1, .i32⟩
  | .hbm, ⟨75, _⟩ => ⟨S256x64, .f32⟩
  | .hbm, ⟨76, _⟩ => ⟨S_, .f32⟩
  | .hbm, ⟨77, _⟩ => ⟨S50000, .f32⟩
  | .hbm, ⟨78, _⟩ => ⟨S_, .f32⟩
  | .hbm, ⟨79, _⟩ => ⟨S256, .f32⟩
  | .hbm, ⟨80, _⟩ => ⟨S50000x1, .i32⟩
  | .hbm, ⟨81, _⟩ => ⟨S256, .f32⟩
  | .hbm, ⟨82, _⟩ => ⟨S256x1, .f32⟩
  | .hbm, ⟨83, _⟩ => ⟨S1x2, .f32⟩
  | .hbm, ⟨84, _⟩ => ⟨S256x2, .f32⟩
  | .local _ .vmem, ⟨0, _⟩ => ⟨S5000x2, .f32⟩
  | .local _ .vmem, ⟨1, _⟩ => ⟨S5000x2, .f32⟩
  | .local _ .vmem, ⟨2, _⟩ => ⟨S2x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S256x64, .f32⟩
  | .local _ .vmem, ⟨37, _⟩ => ⟨S256x1, .f32⟩
  | .local _ .vmem, ⟨38, _⟩ => ⟨S64x2, .f32⟩
  | .local _ .vmem, ⟨39, _⟩ => ⟨S1x2, .f32⟩
  | .local _ .vmem, ⟨40, _⟩ => ⟨S256x2, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S50000_S50000x1_0 : S50000.BroadcastsInDim S50000x1 (![0] : Fin 1 → Fin S50000x1.rank)
  bcast_S_S256 : S_.BroadcastsInDim S256 (![] : Fin 0 → Fin S256.rank)
  shapeCasts_S256_S256x1 : S256.ShapeCasts S256x1
  shapeCasts_S2_S1x2 : S2.ShapeCasts S1x2
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S256x1_S256x64 : S256x1.Broadcasts S256x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S50000_S800000x1_S800000_n_0_0_1_wf : ScatterDims.WF S50000 S800000x1 S800000 [] [0] [0] 1
  dot_S5000x2_S2x64_S5000x64_1_0_0_1_n_n_wf : DotDims.WF S5000x2 S2x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S50000x2.size a
  hwx0_0 : ∀ i : grid0.Coords, EltTy.bits .f32 = 32 ∨ (Rect.block (s := S50000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S256x64.size a
  hwx4_0 : ∀ i : grid4.Coords, EltTy.bits .f32 = 32 ∨ (Rect.block (s := S256x64) S256x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x1.size a ≤ S256x1.size a
  hwx4_1 : ∀ i : grid4.Coords, EltTy.bits .f32 = 32 ∨ (Rect.block (s := S256x1) S256x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x2.size a ≤ S64x2.size a
  hwx4_2 : ∀ i : grid4.Coords, EltTy.bits .f32 = 32 ∨ (Rect.block (s := S64x2) S64x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x2.size a ≤ S256x2.size a
  hwx4_4 : ∀ i : grid4.Coords, EltTy.bits .f32 = 32 ∨ (Rect.block (s := S256x2) S256x2.size (cc4_transform_4 i) (hinb4_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x2_S2x64_S5000x64_1_0_0_1_n_n : DotDims S5000x2 S2x64 S5000x64 where
  lhsContracting := [1]
  rhsContracting := [0]
  lhsNonContracting := [0]
  rhsNonContracting := [1]
  lhsBatch := []
  rhsBatch := []
  wf := dot_S5000x2_S2x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v51) S256x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v56) S256x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v58) S256x2.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S50000 : Shape := ⟨1, ![50000]⟩
abbrev S2x64 : Shape := ⟨2, ![2, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S800000x64 : Shape := ⟨2, ![800000, 64]⟩
abbrev S50000x1 : Shape := ⟨2, ![50000, 1]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 187
  | .vmem => 0
  | .smem => 0
  | _ => 0

abbrev hbmTy0_0 (i : Nat) : BufTy := match i % 128 with
  | 0 => ⟨S50000x2, .f32⟩
  | 1 => ⟨S2x800000, .i32⟩
  | 2 => ⟨S50000, .i32⟩
  | 3 => ⟨S2x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x2, .f32⟩
  | 10 => ⟨S2, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x64, .f32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S50000, .f32⟩
  | 62 => ⟨S50000x1, .f32⟩
  | 63 => ⟨S50000x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S800000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000, .f32⟩
  | 109 => ⟨S50000x1, .f32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S50000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x2, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .f32⟩
  | 10 => ⟨S800000, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x64, .f32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S50000, .f32⟩
  | 28 => ⟨S50000x1, .f32⟩
  | 29 => ⟨S50000x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S_, .f32⟩
  | 39 => ⟨S256x64, .f32⟩
  | 40 => ⟨S50000x1, .i32⟩
  | 41 => ⟨S256x64, .f32⟩
  | 42 => ⟨S_, .f32⟩
  | 43 => ⟨S50000, .f32⟩
  | 44 => ⟨S_, .f32⟩
  | 45 => ⟨S256, .f32⟩
  | 46 => ⟨S50000x1, .i32⟩
  | 47 => ⟨S256, .f32⟩
  | 48 => ⟨S_, .f32⟩
  | 49 => ⟨S_, .f32⟩
  | 50 => ⟨S256, .f32⟩
  | 51 => ⟨S256, .f32⟩
  | 52 => ⟨S256x1, .f32⟩
  | 53 => ⟨S256x64, .f32⟩
  | 54 => ⟨S256x64, .f32⟩
  | 55 => ⟨S256x2, .f32⟩
  | 56 => ⟨S1x2, .f32⟩
  | 57 => ⟨S256x2, .f32⟩
  | 58 => ⟨S256x2, .f32⟩
  | _ => ⟨S50000x2, .f32⟩

abbrev hbmTy (i : Nat) : BufTy := match i / 128 with
  | 0 => hbmTy0_0 i
  | 1 => hbmTy0_1 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_c_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_call2_cst : Ref sig .tc := ⟨.hbm, 163, rfl⟩
abbrev main_call2_v0 : Ref sig .tc := ⟨.hbm, 164, rfl⟩
abbrev main_v124 : Ref sig .tc := ⟨.hbm, 165, rfl⟩
abbrev main_cst_22 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_23 : Ref sig .tc := ⟨.hbm, 170, rfl⟩
abbrev main_v128 : Ref sig .tc := ⟨.hbm, 171, rfl⟩
abbrev main_cst_24 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_25 : Ref sig .tc := ⟨.hbm, 176, rfl⟩
abbrev main_call3_v0 : Ref sig .tc := ⟨.hbm, 177, rfl⟩
abbrev main_call3_v1 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S50000_S800000x1_S800000_n_0_0_1_wf : ScatterDims.WF S50000 S800000x1 S800000 [] [0] [0] 1
  dot_S50000x2_S2x64_S50000x64_1_0_0_1_n_n_wf : DotDims.WF S50000x2 S2x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x2_S256x2_1_0_0_1_n_n_wf : DotDims.WF S256x64 S64x2 S256x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x2_S2x64_S50000x64_1_0_0_1_n_n : DotDims S50000x2 S2x64 S50000x64 where
  lhsContracting := [1]
  rhsContracting := [0]
  lhsNonContracting := [0]
  rhsNonContracting := [1]
  lhsBatch := []
  rhsBatch := []
  wf := dot_S50000x2_S2x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.KernelRun.lean ====
/-
  The idealized kernel's run with its result named.

  The program is five kernel launches among stretches of host operations. Its buffer contents at each boundary are a
  fold: a stretch applies its operations to the contents before it, a launch replaces its arrays by what its
  write-backs leave and keeps every other buffer. Every weakly fair execution terminates, nothing faulting, in a state
  whose every unscoped buffer holds the fold's last stage; read at the result buffer this names the result, and read
  at an argument it gives back the launch contents.
-/
import proofs.«104686_j37598143709432_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    stage of the fold of boundary contents and every argument array as launched. -/
theorem run_result : θ_run defs (onTc (τ := τ) (main (F := F))) ⟨m, fun _ => 0, ρ⟩ (fun r => ∀ c : Dev nD,
      r.2.mem ((c.tc : Thread nD τ).loc main_v58) = W10 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v58 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Gen

end
-- ==== Proof.KernelHost.lean ====
/-
  The idealized kernel's host side: what every buffer holds at each boundary between a stretch of host operations and
  a kernel launch, as a function of the argument arrays.

  The stretches compute, from the edge list, the source and target vectors, the per-node scale (reciprocal square root
  of one plus the number of edges landing on the node), and before each later launch the neighbourhood sum of the
  previous launch's output (its rows looked up at the wrapped sources and added into zeros at the targets) and the
  layer's bias as a row; before the last launch the per-graph sums and counts. A buffer no operation of a stretch
  writes is unchanged across it; a launch changes only its output array.
-/
import proofs.«104686_j37598143709432_2_alg».proof.Proof.KernelRun
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.HostValue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The host operations as functions of the argument arrays -/

/-- Row 0 of the edge list: the source of every edge. -/
def srcVec (x1 : IVec S2x800000 32) : IVec S800000 32 :=
  shapeCast S800000 (extractStridedSlice S1x800000 ![0, 0] x1 slices_S2x800000_S1x800000_0_0) shapeCasts_S1x800000_S800000

/-- Row 1 of the edge list: the target of every edge. -/
def dstVec (x1 : IVec S2x800000 32) : IVec S800000 32 :=
  shapeCast S800000 (extractStridedSlice S1x800000 ![1, 0] x1 slices_S2x800000_S1x800000_1_0) shapeCasts_S1x800000_S800000

/-- An index vector as the lookup reads it: a negative index has the node count added. -/
def wrapVec (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The sources, wrapped, as a one-column matrix. -/
def srcCol (x1 : IVec S2x800000 32) : IVec S800000x1 32 :=
  broadcastInDim S800000x1 ![0] bcast_S800000_S800000x1_0 (wrapVec (srcVec x1))

/-- The targets as a one-column matrix. -/
def dstCol (x1 : IVec S2x800000 32) : IVec S800000x1 32 :=
  broadcastInDim S800000x1 ![0] bcast_S800000_S800000x1_0 (dstVec x1)

/-- The per-node scale: the reciprocal square root of one plus the number of edges landing on the node. -/
def scaleVec (x1 : IVec S2x800000 32) : S50000.Idx → EReal :=
  Host.rsqrt (F := Ideal) (addf
    (Host.scatterAdd (F := Ideal) scatter_S50000_S800000x1_S800000_n_0_0_1
      (broadcastInDim S50000 ![] bcast_S_S50000 (constant (F := Ideal) S_ .f32 0x00000000#32))
      (dstCol x1)
      (broadcastInDim S800000 ![] bcast_S_S800000 (constant (F := Ideal) S_ .f32 0x3F800000#32)))
    (broadcastInDim S50000 ![] bcast_S_S50000 (constant (F := Ideal) S_ .f32 0x3F800000#32)))

/-- The scale as a one-column matrix. -/
def scaleCol (x1 : IVec S2x800000 32) : S50000x1.Idx → EReal :=
  shapeCast S50000x1 (scaleVec x1) shapeCasts_S50000_S50000x1

/-- The neighbourhood sum of the rows of `y`: rows looked up at the sources, added into zeros at the targets. -/
def aggOf (x1 : IVec S2x800000 32) (y : S50000x64.Idx → EReal) : S50000x64.Idx → EReal :=
  Host.scatterAdd (F := Ideal) scatter_S50000x64_S800000x1_S800000x64_1_0_0_1
    (broadcastInDim S50000x64 ![] bcast_S_S50000x64 (constant (F := Ideal) S_ .f32 0x00000000#32))
    (dstCol x1)
    (Host.gather gather_S50000x64_S800000x1_S800000x64_1_0_n_n_0_1_164 y (srcCol x1))

/-- A bias vector as a one-row matrix. -/
def biasRow (b : S64.Idx → EReal) : S1x64.Idx → EReal := shapeCast S1x64 b shapeCasts_S64_S1x64

/-- The graph numbers as a one-column matrix. -/
def batCol (x2 : IVec S50000 32) : IVec S50000x1 32 := broadcastInDim S50000x1 ![0] bcast_S50000_S50000x1_0 x2

/-- Per-graph feature sums: node rows added into zeros at their graph. -/
def poolOf (x2 : IVec S50000 32) (h : S50000x64.Idx → EReal) : S256x64.Idx → EReal :=
  Host.scatterAdd (F := Ideal) scatter_S256x64_S50000x1_S50000x64_1_0_0_1
    (broadcastInDim S256x64 ![] bcast_S_S256x64 (constant (F := Ideal) S_ .f32 0x00000000#32))
    (batCol x2) h

/-- Per-graph node counts as a one-column matrix. -/
def countCol (x2 : IVec S50000 32) : S256x1.Idx → EReal :=
  shapeCast S256x1
    (Host.scatterAdd (F := Ideal) scatter_S256_S50000x1_S50000_n_0_0_1
      (broadcastInDim S256 ![] bcast_S_S256 (constant (F := Ideal) S_ .f32 0x00000000#32))
      (batCol x2)
      (broadcastInDim S50000 ![] bcast_S_S50000 (constant (F := Ideal) S_ .f32 0x3F800000#32)))
    shapeCasts_S256_S256x1

/-- The final bias as a one-row matrix. -/
def outBiasRow (bc : S2.Idx → EReal) : S1x2.Idx → EReal := shapeCast S1x2 bc shapeCasts_S2_S1x2

/-- No operation of a stretch writes the buffer. -/
local macro "unwritten" ops:ident : term =>
  `(List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## What each launch leaves in its output array -/

/-- The first launch's output array. -/
def y1 : S50000x64.Idx → EReal := (dat0 (V1 m ρ) c).arrAt 3 cfg0.N
/-- The second launch's output array. -/
def y2 : S50000x64.Idx → EReal := (dat1 (V3 m ρ) c).arrAt 5 cfg1.N
/-- The third launch's output array. -/
def y3 : S50000x64.Idx → EReal := (dat2 (V5 m ρ) c).arrAt 5 cfg2.N
/-- The fourth launch's output array. -/
def h3 : S50000x64.Idx → EReal := (dat3 (V7 m ρ) c).arrAt 4 cfg3.N
/-- The fifth launch's output array: the program's result. -/
def outArr : S256x2.Idx → EReal := (dat4 (V9 m ρ) c).arrAt 4 cfg4.N

/-! ## Every buffer a later stage reads, traced through the boundaries it crosses unchanged -/

theorem W1_arg0 : W1 m ρ c (Proc.devRef .tc main_arg0) = m ((c : Thread nD τ).loc main_arg0) :=
  StableHlo.after_of_forall_not_mem (b := Proc.devRef .tc main_arg0) _ _ (unwritten hostOps0)
theorem W1_arg2 : W1 m ρ c (Proc.devRef .tc main_arg2) = m ((c : Thread nD τ).loc main_arg2) :=
  StableHlo.after_of_forall_not_mem (b := Proc.devRef .tc main_arg2) _ _ (unwritten hostOps0)
theorem W2_arg2 : W2 m ρ c (Proc.devRef .tc main_arg2) = m ((c : Thread nD τ).loc main_arg2) :=
  (W2_of_ne m ρ c main_arg2 (by decide)).trans (W1_arg2 m ρ c)
theorem W3_arg2 : W3 m ρ c (Proc.devRef .tc main_arg2) = m ((c : Thread nD τ).loc main_arg2) :=
  (StableHlo.after_of_forall_not_mem (b := Proc.devRef .tc main_arg2) _ _ (unwritten hostOps1)).trans (W2_arg2 m ρ c)
theorem W4_arg2 : W4 m ρ c (Proc.devRef .tc main_arg2) = m ((c : Thread nD τ).loc main_arg2) :=
  (W4_of_ne m ρ c main_arg2 (by decide)).trans (W3_arg2 m ρ c)
theorem W5_arg2 : W5 m ρ c (Proc.devRef .tc main_arg2) = m ((c : Thread nD τ).loc main_arg2) :=
  (StableHlo.after_of_forall_not_mem (b := Proc.devRef .tc main_arg2) _ _ (unwritten hostOps2)).trans (W4_arg2 m ρ c)
theorem W6_arg2 : W6 m ρ c (Proc.devRef .tc main_arg2) = m ((c : Thread nD τ).loc main_arg2) :=
  (W6_of_ne m ρ c main_arg2 (by decide)).trans (W5_arg2 m ρ c)
theorem W7_arg2 : W7 m ρ c (Proc.devRef .tc main_arg2) = m ((c : Thread nD τ).loc main_arg2) :=
  (StableHlo.after_of_forall_not_mem (b := Proc.devRef .tc main_arg2) _ _ (unwritten hostOps3)).trans (W6_arg2 m ρ c)
theorem W8_arg2 : W8 m ρ c (Proc.devRef .tc main_arg2) = m ((c : Thread nD τ).loc main_arg2) :=
  (W8_of_ne m ρ c main_arg2 (by decide)).trans (W7_arg2 m ρ c)
theorem W1_arg3 : W1 m ρ c (Proc.devRef .tc main_arg3) = m ((c : Thread nD τ).loc main_arg3) :=
  StableHlo.after_of_forall_not_mem (b := Proc.devRef .tc main_arg3) _ _ (unwritten hostOps0)
theorem W1_arg4 : W1 m ρ c (Proc.devRef .tc main_arg4) = m ((c : Thread nD τ).loc main_arg4) :=
  StableHlo.after_of_forall_not_mem (b := Proc.devRef .tc main_arg4) _ _ (unwritten hostOps0)
theorem W2_arg4 : W2 m ρ c (Proc.devRef .tc main_arg4) = m ((c : Thread nD τ).loc main_arg4) :=
  (W2_of_ne m ρ c main_arg4 (by decide)).trans (W1_arg4 m ρ c)
theorem W1_arg5 : W1 m ρ c (Proc.devRef .tc main_arg5) = m ((c : Thread nD τ).loc main_arg5) :=
  StableHlo.after_of_forall_not_mem (b := Proc.devRef .tc main_arg5) _ _ (unwritten hostOps0)
theorem W2_arg5 : W2 m ρ c (Proc.devRef .tc main_arg5) = m ((c : Thread nD τ).loc main_arg5) :=
  (W2_of_ne m ρ c main_arg5 (by decide)).trans (W1_arg5 m ρ c)
theorem W3_arg5 : W3 m ρ c (Proc.devRef .tc main_arg5) = m ((c : Thread nD τ).loc main_arg5) :=
  (StableHlo.after_of_forall_not_mem (b := Proc.devRef .tc main_arg5) _ _ (unwritten hostOps1)).trans (W2_arg5 m ρ c)
theorem W1_arg6 : W1 m ρ c (Proc.devRef .tc main_arg6) = m ((c : Thread nD τ).loc main_arg6) :=
  StableHlo.after_of_forall_not_mem (b := Proc.devRef .tc main_arg6) _ _ (unwritten hostOps0)
theorem W2_arg6 : W2 m ρ c (Proc.devRef .tc main_arg6) = m ((c : Thread nD τ).loc main_arg6) :=
  (W2_of_ne m ρ c main_arg6 (by decide)).trans (W1_arg6 m ρ c)
theorem W3_arg6 : W3 m ρ c (Proc.devRef .tc main_arg6) = m ((c : Thread nD τ).loc main_arg6) :=
  (StableHlo.after_of_forall_not_mem (b := Proc.devRef .tc main_arg6) _ _ (unwritten hostOps1)).trans (W2_arg6 m ρ c)
theorem W4_arg6 : W4 m ρ c (Proc.devRef .tc main_arg6) = m ((c : Thread nD τ).loc main_arg6) :=
  (W4_of_ne m ρ c main_arg6 (by decide)).trans (W3_arg6 m ρ c)
theorem W1_arg7 : W1 m ρ c (Proc.devRef .tc main_arg7) = m ((c : Thread nD τ).loc main_arg7) :=
  StableHlo.after_of_forall_not_mem (b := Proc.devRef .tc main_arg7) _ _ (unwritten hostOps0)
theorem W2_arg7 : W2 m ρ c (Proc.devRef .tc main_arg7) = m ((c : Thread nD τ).loc main_arg7) :=
  (W2_of_ne m ρ c main_arg7 (by decide)).trans (W1_arg7 m ρ c)
theorem W3_arg7 : W3 m ρ c (Proc.devRef .tc main_arg7) = m ((c : Thread nD τ).loc main_arg7) :=
  (StableHlo.after_of_forall_not_mem (b := Proc.devRef .tc main_arg7) _ _ (unwritten hostOps1)).trans (W2_arg7 m ρ c)
theorem W4_arg7 : W4 m ρ c (Proc.devRef .tc main_arg7) = m ((c : Thread nD τ).loc main_arg7) :=
  (W4_of_ne m ρ c main_arg7 (by decide)).trans (W3_arg7 m ρ c)
theorem W5_arg7 : W5 m ρ c (Proc.devRef .tc main_arg7) = m ((c : Thread nD τ).loc main_arg7) :=
  (StableHlo.after_of_forall_not_mem (b := Proc.devRef .tc main_arg7) _ _ (unwritten hostOps2)).trans (W4_arg7 m ρ c)
theorem W1_arg8 : W1 m ρ c (Proc.devRef .tc main_arg8) = m ((c : Thread nD τ).loc main_arg8) :=
  StableHlo.after_of_forall_not_mem (b := Proc.devRef .tc main_arg8) _ _ (unwritten hostOps0)
theorem W2_arg8 : W2 m ρ c (Proc.devRef .tc main_arg8) = m ((c : Thread nD τ).loc main_arg8) :=
  (W2_of_ne m ρ c main_arg8 (by decide)).trans (W1_arg8 m ρ c)
theorem W3_arg8 : W3 m ρ c (Proc.devRef .tc main_arg8) = m ((c : Thread nD τ).loc main_arg8) :=
  (StableHlo.after_of_forall_not_mem (b := Proc.devRef .tc main_arg8) _ _ (unwritten hostOps1)).trans (W2_arg8 m ρ c)
theorem W4_arg8 : W4 m ρ c (Proc.devRef .tc main_arg8) = m ((c : Thread nD τ).loc main_arg8) :=
  (W4_of_ne m ρ c main_arg8 (by decide)).trans (W3_arg8 m ρ c)
theorem W5_arg8 : W5 m ρ c (Proc.devRef .tc main_arg8) = m ((c : Thread nD τ).loc main_arg8) :=
  (StableHlo.after_of_forall_not_mem (b := Proc.devRef .tc main_arg8) _ _ (unwritten hostOps2)).trans (W4_arg8 m ρ c)
theorem W6_arg8 : W6 m ρ c (Proc.devRef .tc main_arg8) = m ((c : Thread nD τ).loc main_arg8) :=
  (W6_of_ne m ρ c main_arg8 (by decide)).trans (W5_arg8 m ρ c)
theorem W1_arg9 : W1 m ρ c (Proc.devRef .tc main_arg9) = m ((c : Thread nD τ).loc main_arg9) :=
  StableHlo.after_of_forall_not_mem (b := Proc.devRef .tc main_arg9) _ _ (unwritten hostOps0)
theorem W2_arg9 : W2 m ρ c (Proc.devRef .tc main_arg9) = m ((c : Thread nD τ).loc main_arg9) :=
  (W2_of_ne m ρ c main_arg9 (by decide)).trans (W1_arg9 m ρ c)
theorem W3_arg9 : W3 m ρ c (Proc.devRef .tc main_arg9) = m ((c : Thread nD τ).loc main_arg9) :=
  (StableHlo.after_of_forall_not_mem (b := Proc.devRef .tc main_arg9) _ _ (unwritten hostOps1)).trans (W2_arg9 m ρ c)
theorem W4_arg9 : W4 m ρ c (Proc.devRef .tc main_arg9) = m ((c : Thread nD τ).loc main_arg9) :=
  (W4_of_ne m ρ c main_arg9 (by decide)).trans (W3_arg9 m ρ c)
theorem W5_arg9 : W5 m ρ c (Proc.devRef .tc main_arg9) = m ((c : Thread nD τ).loc main_arg9) :=
  (StableHlo.after_of_forall_not_mem (b := Proc.devRef .tc main_arg9) _ _ (unwritten hostOps2)).trans (W4_arg9 m ρ c)
theorem W6_arg9 : W6 m ρ c (Proc.devRef .tc main_arg9) = m ((c : Thread nD τ).loc main_arg9) :=
  (W6_of_ne m ρ c main_arg9 (by decide)).trans (W5_arg9 m ρ c)
theorem W7_arg9 : W7 m ρ c (Proc.devRef .tc main_arg9) = m ((c : Thread nD τ).loc main_arg9) :=
  (StableHlo.after_of_forall_not_mem (b := Proc.devRef .tc main_arg9) _ _ (unwritten hostOps3)).trans (W6_arg9 m ρ c)
theorem W8_arg9 : W8 m ρ c (Proc.devRef .tc main_arg9) = m ((c : Thread nD τ).loc main_arg9) :=
  (W8_of_ne m ρ c main_arg9 (by decide)).trans (W7_arg9 m ρ c)
theorem W9_arg9 : W9 m ρ c (Proc.devRef .tc main_arg9) = m ((c : Thread nD τ).loc main_arg9) :=
  (StableHlo.after_of_forall_not_mem (b := Proc.devRef .tc main_arg9) _ _ (unwritten hostOps4)).trans (W8_arg9 m ρ c)
theorem W1_arg10 : W1 m ρ c (Proc.devRef .tc main_arg10) = m ((c : Thread nD τ).loc main_arg10) :=
  StableHlo.after_of_forall_not_mem (b := Proc.devRef .tc main_arg10) _ _ (unwritten hostOps0)
theorem W2_arg10 : W2 m ρ c (Proc.devRef .tc main_arg10) = m ((c : Thread nD τ).loc main_arg10) :=
  (W2_of_ne m ρ c main_arg10 (by decide)).trans (W1_arg10 m ρ c)
theorem W3_arg10 : W3 m ρ c (Proc.devRef .tc main_arg10) = m ((c : Thread nD τ).loc main_arg10) :=
  (StableHlo.after_of_forall_not_mem (b := Proc.devRef .tc main_arg10) _ _ (unwritten hostOps1)).trans (W2_arg10 m ρ c)
theorem W4_arg10 : W4 m ρ c (Proc.devRef .tc main_arg10) = m ((c : Thread nD τ).loc main_arg10) :=
  (W4_of_ne m ρ c main_arg10 (by decide)).trans (W3_arg10 m ρ c)
theorem W5_arg10 : W5 m ρ c (Proc.devRef .tc main_arg10) = m ((c : Thread nD τ).loc main_arg10) :=
  (StableHlo.after_of_forall_not_mem (b := Proc.devRef .tc main_arg10) _ _ (unwritten hostOps2)).trans (W4_arg10 m ρ c)
theorem W6_arg10 : W6 m ρ c (Proc.devRef .tc main_arg10) = m ((c : Thread nD τ).loc main_arg10) :=
  (W6_of_ne m ρ c main_arg10 (by decide)).trans (W5_arg10 m ρ c)
theorem W7_arg10 : W7 m ρ c (Proc.devRef .tc main_arg10) = m ((c : Thread nD τ).loc main_arg10) :=
  (StableHlo.after_of_forall_not_mem (b := Proc.devRef .tc main_arg10) _ _ (unwritten hostOps3)).trans (W6_arg10 m ρ c)
theorem W8_arg10 : W8 m ρ c (Proc.devRef .tc main_arg10) = m ((c : Thread nD τ).loc main_arg10) :=
  (W8_of_ne m ρ c main_arg10 (by decide)).trans (W7_arg10 m ρ c)
theorem W1_v1 : W1 m ρ c (Proc.devRef .tc main_v1) = srcVec (m ((c : Thread nD τ).loc main_arg1)) := by
  show StableHlo.after hostOps0 (W0 m ρ c) (Proc.devRef .tc main_v1) = _
  after_results; rfl
theorem W1_v3 : W1 m ρ c (Proc.devRef .tc main_v3) = dstVec (m ((c : Thread nD τ).loc main_arg1)) := by
  show StableHlo.after hostOps0 (W0 m ρ c) (Proc.devRef .tc main_v3) = _
  after_results; rfl
theorem W1_v11 : W1 m ρ c (Proc.devRef .tc main_v11) = scaleCol (m ((c : Thread nD τ).loc main_arg1)) := by
  show StableHlo.after hostOps0 (W0 m ρ c) (Proc.devRef .tc main_v11) = _
  after_results; rfl
theorem W2_v1 : W2 m ρ c (Proc.devRef .tc main_v1) = srcVec (m ((c : Thread nD τ).loc main_arg1)) :=
  (W2_of_ne m ρ c main_v1 (by decide)).trans (W1_v1 m ρ c)
theorem W3_v1 : W3 m ρ c (Proc.devRef .tc main_v1) = srcVec (m ((c : Thread nD τ).loc main_arg1)) :=
  (StableHlo.after_of_forall_not_mem (b := Proc.devRef .tc main_v1) _ _ (unwritten hostOps1)).trans (W2_v1 m ρ c)
theorem W4_v1 : W4 m ρ c (Proc.devRef .tc main_v1) = srcVec (m ((c : Thread nD τ).loc main_arg1)) :=
  (W4_of_ne m ρ c main_v1 (by decide)).trans (W3_v1 m ρ c)
theorem W5_v1 : W5 m ρ c (Proc.devRef .tc main_v1) = srcVec (m ((c : Thread nD τ).loc main_arg1)) :=
  (StableHlo.after_of_forall_not_mem (b := Proc.devRef .tc main_v1) _ _ (unwritten hostOps2)).trans (W4_v1 m ρ c)
theorem W6_v1 : W6 m ρ c (Proc.devRef .tc main_v1) = srcVec (m ((c : Thread nD τ).loc main_arg1)) :=
  (W6_of_ne m ρ c main_v1 (by decide)).trans (W5_v1 m ρ c)
theorem W2_v3 : W2 m ρ c (Proc.devRef .tc main_v3) = dstVec (m ((c : Thread nD τ).loc main_arg1)) :=
  (W2_of_ne m ρ c main_v3 (by decide)).trans (W1_v3 m ρ c)
theorem W3_v3 : W3 m ρ c (Proc.devRef .tc main_v3) = dstVec (m ((c : Thread nD τ).loc main_arg1)) :=
  (StableHlo.after_of_forall_not_mem (b := Proc.devRef .tc main_v3) _ _ (unwritten hostOps1)).trans (W2_v3 m ρ c)
theorem W4_v3 : W4 m ρ c (Proc.devRef .tc main_v3) = dstVec (m ((c : Thread nD τ).loc main_arg1)) :=
  (W4_of_ne m ρ c main_v3 (by decide)).trans (W3_v3 m ρ c)
theorem W5_v3 : W5 m ρ c (Proc.devRef .tc main_v3) = dstVec (m ((c : Thread nD τ).loc main_arg1)) :=
  (StableHlo.after_of_forall_not_mem (b := Proc.devRef .tc main_v3) _ _ (unwritten hostOps2)).trans (W4_v3 m ρ c)
theorem W6_v3 : W6 m ρ c (Proc.devRef .tc main_v3) = dstVec (m ((c : Thread nD τ).loc main_arg1)) :=
  (W6_of_ne m ρ c main_v3 (by decide)).trans (W5_v3 m ρ c)
theorem W2_v11 : W2 m ρ c (Proc.devRef .tc main_v11) = scaleCol (m ((c : Thread nD τ).loc main_arg1)) :=
  ((W2_arr m ρ c 2).trans (((dat0 (V1 m ρ) c).arrAt_in 2 rfl _).trans (A_eq0 (V1 m ρ) c 2))).trans (W1_v11 m ρ c)
theorem W3_v11 : W3 m ρ c (Proc.devRef .tc main_v11) = scaleCol (m ((c : Thread nD τ).loc main_arg1)) :=
  (StableHlo.after_of_forall_not_mem (b := Proc.devRef .tc main_v11) _ _ (unwritten hostOps1)).trans (W2_v11 m ρ c)
theorem W4_v11 : W4 m ρ c (Proc.devRef .tc main_v11) = scaleCol (m ((c : Thread nD τ).loc main_arg1)) :=
  ((W4_arr m ρ c 2).trans (((dat1 (V3 m ρ) c).arrAt_in 2 rfl _).trans (A_eq1 (V3 m ρ) c 2))).trans (W3_v11 m ρ c)
theorem W5_v11 : W5 m ρ c (Proc.devRef .tc main_v11) = scaleCol (m ((c : Thread nD τ).loc main_arg1)) :=
  (StableHlo.after_of_forall_not_mem (b := Proc.devRef .tc main_v11) _ _ (unwritten hostOps2)).trans (W4_v11 m ρ c)
theorem W6_v11 : W6 m ρ c (Proc.devRef .tc main_v11) = scaleCol (m ((c : Thread nD τ).loc main_arg1)) :=
  ((W6_arr m ρ c 2).trans (((dat2 (V5 m ρ) c).arrAt_in 2 rfl _).trans (A_eq2 (V5 m ρ) c 2))).trans (W5_v11 m ρ c)
theorem W7_v11 : W7 m ρ c (Proc.devRef .tc main_v11) = scaleCol (m ((c : Thread nD τ).loc main_arg1)) :=
  (StableHlo.after_of_forall_not_mem (b := Proc.devRef .tc main_v11) _ _ (unwritten hostOps3)).trans (W6_v11 m ρ c)
theorem W2_v12 : W2 m ρ c (Proc.devRef .tc main_v12) = y1 m ρ c := W2_arr m ρ c 3
theorem W3_v12 : W3 m ρ c (Proc.devRef .tc main_v12) = y1 m ρ c :=
  (StableHlo.after_of_forall_not_mem (b := Proc.devRef .tc main_v12) _ _ (unwritten hostOps1)).trans (W2_v12 m ρ c)

/-! ## The second launch's operands -/

set_option maxHeartbeats 2000000 in
theorem W3_v22 : W3 m ρ c (Proc.devRef .tc main_v22) = aggOf (m ((c : Thread nD τ).loc main_arg1)) (y1 m ρ c) := by
  show StableHlo.after hostOps1 (W2 m ρ c) (Proc.devRef .tc main_v22) = _
  after_results
  rw [W2_v1, W2_v3, W2_v12]; rfl
theorem W3_v23 : W3 m ρ c (Proc.devRef .tc main_v23) = biasRow (m ((c : Thread nD τ).loc main_arg4)) := by
  show StableHlo.after hostOps1 (W2 m ρ c) (Proc.devRef .tc main_v23) = _
  after_results
  rw [W2_arg4]; rfl
theorem W4_v24 : W4 m ρ c (Proc.devRef .tc main_v24) = y2 m ρ c := W4_arr m ρ c 5
theorem W5_v24 : W5 m ρ c (Proc.devRef .tc main_v24) = y2 m ρ c :=
  (StableHlo.after_of_forall_not_mem (b := Proc.devRef .tc main_v24) _ _ (unwritten hostOps2)).trans (W4_v24 m ρ c)

/-! ## The third launch's operands -/

set_option maxHeartbeats 2000000 in
theorem W5_v34 : W5 m ρ c (Proc.devRef .tc main_v34) = aggOf (m ((c : Thread nD τ).loc main_arg1)) (y2 m ρ c) := by
  show StableHlo.after hostOps2 (W4 m ρ c) (Proc.devRef .tc main_v34) = _
  after_results
  rw [W4_v1, W4_v3, W4_v24]; rfl
theorem W5_v35 : W5 m ρ c (Proc.devRef .tc main_v35) = biasRow (m ((c : Thread nD τ).loc main_arg6)) := by
  show StableHlo.after hostOps2 (W4 m ρ c) (Proc.devRef .tc main_v35) = _
  after_results
  rw [W4_arg6]; rfl
theorem W6_v36 : W6 m ρ c (Proc.devRef .tc main_v36) = y3 m ρ c := W6_arr m ρ c 5
theorem W7_v36 : W7 m ρ c (Proc.devRef .tc main_v36) = y3 m ρ c :=
  (StableHlo.after_of_forall_not_mem (b := Proc.devRef .tc main_v36) _ _ (unwritten hostOps3)).trans (W6_v36 m ρ c)

/-! ## The fourth launch's operands -/

set_option maxHeartbeats 2000000 in
theorem W7_v46 : W7 m ρ c (Proc.devRef .tc main_v46) = aggOf (m ((c : Thread nD τ).loc main_arg1)) (y3 m ρ c) := by
  show StableHlo.after hostOps3 (W6 m ρ c) (Proc.devRef .tc main_v46) = _
  after_results
  rw [W6_v1, W6_v3, W6_v36]; rfl
theorem W7_v47 : W7 m ρ c (Proc.devRef .tc main_v47) = biasRow (m ((c : Thread nD τ).loc main_arg8)) := by
  show StableHlo.after hostOps3 (W6 m ρ c) (Proc.devRef .tc main_v47) = _
  after_results
  rw [W6_arg8]; rfl
theorem W8_v48 : W8 m ρ c (Proc.devRef .tc main_v48) = h3 m ρ c := W8_arr m ρ c 4

/-! ## The fifth launch's operands, and the result -/

set_option maxHeartbeats 2000000 in
theorem W9_v51 : W9 m ρ c (Proc.devRef .tc main_v51) = poolOf (m ((c : Thread nD τ).loc main_arg2)) (h3 m ρ c) := by
  show StableHlo.after hostOps4 (W8 m ρ c) (Proc.devRef .tc main_v51) = _
  after_results
  rw [W8_arg2, W8_v48]; rfl
set_option maxHeartbeats 2000000 in
theorem W9_v56 : W9 m ρ c (Proc.devRef .tc main_v56) = countCol (m ((c : Thread nD τ).loc main_arg2)) := by
  show StableHlo.after hostOps4 (W8 m ρ c) (Proc.devRef .tc main_v56) = _
  after_results
  rw [W8_arg2]; rfl
theorem W9_v57 : W9 m ρ c (Proc.devRef .tc main_v57) = outBiasRow (m ((c : Thread nD τ).loc main_arg10)) := by
  show StableHlo.after hostOps4 (W8 m ρ c) (Proc.devRef .tc main_v57) = _
  after_results
  rw [W8_arg10]; rfl
theorem W10_v58 : W10 m ρ c (Proc.devRef .tc main_v58) = outArr m ρ c := W10_arr m ρ c 4

end Cert.KernelIdeal.HostValue

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Region0.lean ====
/-
  The first launch as one array: a scaled matrix product.

  The launch walks the 50000 nodes in ten blocks of 5000 rows. At each block it multiplies the block's feature rows by
  the 2 × 64 weight matrix and scales each row by its node's scale. A block's result depends only on the same rows of
  the features and the scale column and on the whole weights, so the ten blocks written back are the ten row blocks of
  ONE array, the blocks cover it, and that array is what the launch leaves: at (p, q) the product row's entry times
  the scale of node p.
-/
import proofs.«104686_j37598143709432_2_alg».proof.Proof.Gen.KernelIdeal.Frame
import proofs.«104686_j37598143709432_2_alg».proof.Proof.LibMatDot
import proofs.«104686_j37598143709432_2_alg».proof.Proof.LibColumn
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The product row of `x` with `w`, scaled by the node's scale: the whole output array of region 0 as one function of
    its three input arrays, entry by entry. -/
def prodScaled (x : S50000x2.Idx → EReal) (w : S2x64.Idx → EReal) (d : S50000x1.Idx → EReal) : S50000x64.Idx → EReal :=
  fun i => (∑ k : Fin 2, x (ix2 (⟨(i 0).val, idx2_lt0 i⟩ : Fin 50000) k) * w (ix2 k (⟨(i 1).val, idx2_lt1 i⟩ : Fin 64)))
    * d (ix2 (⟨(i 0).val, idx2_lt0 i⟩ : Fin 50000) (0 : Fin 1))

/-- The body's arithmetic at entry `(p, q)` of a block: row `p` of the left block against column `q` of the weights (the
    narrowing of the operands is the identity on extended reals, and the accumulator starts at zero), times the scale
    column's entry `p`. -/
theorem pay0_apply (x0 : Vec Ideal S5000x2 .f32) (x1 : Vec Ideal S2x64 .f32) (x2 : Vec Ideal S5000x1 .f32)
    (p : Fin 5000) (q : Fin 64) :
    k0_pay1 (F := Ideal) x0 x1 x2 (ix2 p q) = (∑ k : Fin 2, x0 (ix2 p k) * x1 (ix2 k q)) * x2 (ix2 p (0 : Fin 1)) := by
  unfold k0_pay1
  rw [mulf_apply]
  rw [Cert.Lib.broadcastTo_a1_ab_apply, shapeCast_self]
  congr 1
  exact Cert.Lib.matmul_plain_zero_apply (a := 5000) (K := 2) (b := 64) dot_S5000x2_S2x64_S5000x64_1_0_0_1_n_n_wf none _ _ p q

/-- A block entry against the array entry it sits at: when the three blocks read the arrays at the rows and columns of
    array index `i`, the body's result at `(p, q)` is `prodScaled` at `i`. -/
theorem pay0_eq_prodScaled (x : S50000x2.Idx → EReal) (w : S2x64.Idx → EReal) (d : S50000x1.Idx → EReal)
    (x0 : Vec Ideal S5000x2 .f32) (x1 : Vec Ideal S2x64 .f32) (x2 : Vec Ideal S5000x1 .f32)
    (i : S50000x64.Idx) (p : Fin 5000) (q : Fin 64)
    (h0 : ∀ k : Fin 2, x0 (ix2 p k) = x (ix2 (⟨(i 0).val, idx2_lt0 i⟩ : Fin 50000) k))
    (h1 : ∀ k : Fin 2, x1 (ix2 k q) = w (ix2 k (⟨(i 1).val, idx2_lt1 i⟩ : Fin 64)))
    (h2 : x2 (ix2 p (0 : Fin 1)) = d (ix2 (⟨(i 0).val, idx2_lt0 i⟩ : Fin 50000) (0 : Fin 1))) :
    k0_pay1 (F := Ideal) x0 x1 x2 (ix2 p q) = prodScaled x w d i := by
  rw [pay0_apply, h2]
  unfold prodScaled
  congr 1
  exact Finset.sum_congr rfl fun k _ => by rw [h0 k, h1 k]

/-- The printed zero offsets are the zero function. -/
theorem off0_zero : (![0, 0] : Fin 2 → Nat) = fun _ => 0 := funext fun a => by fin_cases a <;> rfl

/-- The printed index maps, decided over the grid: point `t` takes row block `t` of the node arrays and the whole of the
    weights. -/
theorem idx_facts0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `prodScaled` of the three input arrays as the region finds them. -/
theorem flushed0_eq (c : Dev nD) (t : Fin cfg0.N) :
    (dat0 (F := Ideal) V c).flushed 3 t
      = ((cfg0.win 3).blk t).view.read (Elt Ideal) (prodScaled (V c main_arg0) (V c main_arg3) (V c main_v11)) := by
  show (cfg0.win 3).cut (grid0.coords t) ((dat0 (F := Ideal) V c).after 3 t) = _
  rw [after0_3]
  unfold out0_3
  rw [View.canon_unit_zero off0_zero]
  simp only [View.ld_unit_zero (S := S5000x2) off0_zero, View.ld_unit_zero (S := S2x64) off0_zero, View.ld_unit_zero (S := S5000x1) off0_zero]
  obtain ⟨e0, e1, e2, e3, e4, e5, e6, e7⟩ := idx_facts0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = prodScaled (V c main_arg0) (V c main_arg3) (V c main_v11) (((cfg0.win 3).blk t).view.emb (ix2 p q))
  refine pay0_eq_prodScaled (V c main_arg0) (V c main_arg3) (V c main_v11) (iblk0 V c 0 t) (iblk0 V c 1 t) (iblk0 V c 2 t)
    (((cfg0.win 3).blk t).view.emb (ix2 p q)) p q (fun k => ?_) (fun k => ?_) ?_
  · show V c main_arg0 (((cfg0.win 0).blk t).view.emb (ix2 p k)) = _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 2 + 1 * k.val = k.val; omega
  · show V c main_arg3 (((cfg0.win 1).blk t).view.emb (ix2 k q)) = _
    refine congrArg _ (funext fun a => Fin.ext ?_)
    match a with
    | ⟨0, _⟩ => show win0_1.index t (0 : Fin 2) * 2 + 1 * k.val = k.val; omega
    | ⟨1, _⟩ => show win0_1.index t (1 : Fin 2) * 64 + 1 * q.val = win0_3.index t (1 : Fin 2) * 64 + 1 * q.val; omega
  · show V c main_v11 (((cfg0.win 2).blk t).view.emb (ix2 p (0 : Fin 1))) = _
    refine congrArg _ (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega

/-- An index of the output array is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v12).slice (win0_3.rect t)).set ↔ _
  rw [View.set_slice_whole, Rect.mem_set_unit]
  exact Iff.rfl

/-- Every entry of the output array lies in the block of the point that handles its row: row `r` is in block `r / 5000`. -/
theorem cover0 (i : S50000x64.Idx) :
    ∃ t : Fin cfg0.N, (cfg0.win 3).flush t = true ∧ i ∈ ((cfg0.win 3).blk t).view.set := by
  have hi0 : (i 0).val < 50000 := idx2_lt0 i
  have hi1 : (i 1).val < 64 := idx2_lt1 i
  have hN : grid0.N = 10 := N_0
  refine ⟨⟨(i 0).val / 5000, by show (i 0).val / 5000 < grid0.N; omega⟩, flush0_3 _, ?_⟩
  rw [mem_blk0]
  obtain ⟨e0, e1, -⟩ := idx_facts0 ⟨(i 0).val / 5000, by show (i 0).val / 5000 < grid0.N; omega⟩
  intro a
  match a with
  | ⟨0, _⟩ =>
    show win0_3.index ⟨(i 0).val / 5000, _⟩ (0 : Fin 2) * 5000 ≤ (i 0).val ∧ (i 0).val < win0_3.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, _⟩ (1 : Fin 2) * 64 ≤ (i 1).val ∧ (i 1).val < win0_3.index ⟨(i 0).val / 5000, _⟩ (1 : Fin 2) * 64 + 64
    rw [e1]; omega

/-- The output array after the run is `prodScaled` of the three input arrays as the region finds them. -/
theorem final0 (c : Dev nD) :
    (dat0 (F := Ideal) V c).arrAt 3 cfg0.N = prodScaled (V c main_arg0) (V c main_arg3) (V c main_v11) :=
  (dat0 (F := Ideal) V c).arrAt_eq_of_cover 3 (prodScaled (V c main_arg0) (V c main_arg3) (V c main_v11))
    (fun t _ => flushed0_eq V c t) cover0

/-- Region 0 at entry `(p, q)` of its output array: the product row of `x` with `W1`, scaled by the node's scale. -/
theorem region0_entry (c : Dev nD) (x : S50000x2.Idx → EReal) (w : S2x64.Idx → EReal) (d : S50000x1.Idx → EReal)
    (hx : V c main_arg0 = x) (hw : V c main_arg3 = w) (hd : V c main_v11 = d) (p : Fin 50000) (q : Fin 64) :
    (dat0 (F := Ideal) V c).arrAt 3 cfg0.N (ix2 p q)
      = (∑ k : Fin 2, x (ix2 p k) * w (ix2 k q)) * d (ix2 p (0 : Fin 1)) := by
  subst hx hw hd
  rw [final0]
  rfl

end Cert.KernelIdeal.RegionValue

end
-- ==== Proof.CombineMatmulEntry.lean ====
/-
  The combine-and-multiply layer of the graph convolution, read at one entry.

  A layer takes the aggregated neighbour rows `agg`, the node's own row `y`, the per-node scale `d` (a column), a bias row
  `b` and a weight matrix `w`. Row `p` of its result is: add the aggregate to the node's own row, scale by `d p`, add the
  bias, clip below at zero, multiply the row by `w`, and scale by `d p` again. This module states that entry as one function
  of the five arrays and reads the row-block arithmetic at an entry of a block of rows.
-/
import Idealize.ShloMosaic.Lib.ValueIdx
import Idealize.ShloMosaic.PureOps.Ideal.Laws

noncomputable section

open scoped BigOperators

namespace Cert.KernelIdeal.RegionValue

open Idealize.ShloMosaic Idealize.ShloMosaic.ValueIdx

/-- Entry `(p, q)` of a combine-and-multiply layer over `n` nodes and 64 features: the clipped, biased, scaled sum of
    row `p` of `agg` and of `y`, times column `q` of `w`, scaled by `d p`. -/
def combineMatmulEntry {n : ℕ} (agg y : (⟨2, ![n, 64]⟩ : Shape).Idx → EReal) (d : (⟨2, ![n, 1]⟩ : Shape).Idx → EReal)
    (b : (⟨2, ![1, 64]⟩ : Shape).Idx → EReal) (w : (⟨2, ![64, 64]⟩ : Shape).Idx → EReal) (p : Fin n) (q : Fin 64) : EReal :=
  (∑ k : Fin 64, max ((agg (ix2 p k) + y (ix2 p k)) * d (ix2 p (0 : Fin 1)) + b (ix2 (0 : Fin 1) k)) 0 * w (ix2 k q))
    * d (ix2 p (0 : Fin 1))

/-- The entry of a block of rows is the entry of the whole arrays, when row `p` of each row-blocked operand is row `P` of
    its array, the bias is whole, and column `q` of the block's weights is column `Q` of the weights. -/
theorem combineMatmulEntry_block {m n : ℕ} (x0 x1 : (⟨2, ![m, 64]⟩ : Shape).Idx → EReal) (x2 : (⟨2, ![m, 1]⟩ : Shape).Idx → EReal)
    (x3 : (⟨2, ![1, 64]⟩ : Shape).Idx → EReal) (x4 : (⟨2, ![64, 64]⟩ : Shape).Idx → EReal)
    (agg y : (⟨2, ![n, 64]⟩ : Shape).Idx → EReal) (d : (⟨2, ![n, 1]⟩ : Shape).Idx → EReal)
    (b : (⟨2, ![1, 64]⟩ : Shape).Idx → EReal) (w : (⟨2, ![64, 64]⟩ : Shape).Idx → EReal) (p : Fin m) (P : Fin n) (q Q : Fin 64)
    (h0 : ∀ k : Fin 64, x0 (ix2 p k) = agg (ix2 P k)) (h1 : ∀ k : Fin 64, x1 (ix2 p k) = y (ix2 P k))
    (h2 : x2 (ix2 p (0 : Fin 1)) = d (ix2 P (0 : Fin 1))) (h3 : ∀ k : Fin 64, x3 (ix2 (0 : Fin 1) k) = b (ix2 (0 : Fin 1) k))
    (h4 : ∀ k : Fin 64, x4 (ix2 k q) = w (ix2 k Q)) :
    combineMatmulEntry x0 x1 x2 x3 x4 p q = combineMatmulEntry agg y d b w P Q := by
  unfold combineMatmulEntry
  rw [h2]
  refine congrArg (· * d (ix2 P (0 : Fin 1))) (Finset.sum_congr rfl fun k _ => ?_)
  rw [h0, h1, h3, h4]

end Cert.KernelIdeal.RegionValue

end
-- ==== Proof.LibWholeRect.lean ====
/-
  Whole-buffer rectangles.

  A kernel body that loads or stores a whole buffer does it through the rectangle at offset zero whose extents are the
  buffer's own. Every index of the shape lies in that rectangle; one store through it leaves exactly its payload, whatever
  the buffer held before; and a whole memref read through it gives back its contents.
-/
import Idealize.ShloMosaic.Lib.Pipeline.Frame
import Idealize.ShloMosaic.Lib.Pipeline.FrameBody
import Idealize.ShloMosaic.Lib.Pipeline.Value

noncomputable section

namespace Cert.Lib

open Idealize.ShloMosaic

variable {sig : RefSig} {Val : EltTy → Type}

/-- The printed zero offsets of ranks two and three are the zero function. -/
theorem off2_zero : (![0, 0] : Fin 2 → ℕ) = fun _ => 0 := by funext a; fin_cases a <;> rfl
theorem off3_zero : (![0, 0, 0] : Fin 3 → ℕ) = fun _ => 0 := by funext a; fin_cases a <;> rfl

/-- Every index of a shape lies in the rectangle at offset zero of the shape's own extents. -/
theorem mem_unit_zero {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- One store through that rectangle leaves its payload, whatever the buffer held. -/
theorem read_write_whole [∀ e, Nonempty (Val e)] {κ : Kind} {sp : Space} {S : Shape} {e : EltTy} (v : View sig κ sp S e)
    (f : v.ty.Contents Val) {off : Fin S.rank → ℕ} (h : off = fun _ => 0) (inb : ∀ a, off a + S.size a ≤ S.size a)
    (w : S.Idx → Val e) :
    v.read Val (v.writes Val f [(⟨Rect.unit off S.size inb, w⟩ : View.Piece Val S e)]) = w := by
  rw [View.read_writes_eq_canon _ _ _ (fun y => ⟨_, List.mem_singleton_self _, mem_unit_zero h inb y⟩), View.canon_unit_zero h]

/-- A whole memref read through that rectangle is its contents. -/
theorem readAt_whole {κ : Kind} {sp : Space} {S : Shape} {e : EltTy} (M : Memref sig κ sp S e) (hM : M.IsWhole)
    {off : Fin S.rank → ℕ} (h : off = fun _ => 0) (inb : ∀ a, off a + S.size a ≤ S.size a) (x : S.Idx → Val e) :
    View.readAt Val M.view (Rect.unit off S.size inb).toLoadRect (hM.unread x) = x := by
  rw [View.readAt_eq_ld, hM.read_unread, View.ld_unit_zero h]

end Cert.Lib

end
-- ==== Proof.Region1.lean ====
/-
  Kernel region 1: a combine-and-multiply layer of the graph convolution, as one array.

  The region walks the 50000 nodes in ten blocks of 5000 rows. At each block it adds the aggregated neighbour rows to the
  nodes' own rows, scales each row by its node's scale, adds the bias row, clips below at zero, multiplies by the 64 × 64
  weight matrix `W2`, and scales each row again. Each block's result depends only on the same rows of the row-blocked
  operands and on the whole bias and weights, so the ten blocks written back are the ten row blocks of ONE array: the
  layer's result, entry by entry. The blocks cover the array, so that array is what the region leaves.
-/
import proofs.«104686_j37598143709432_2_alg».proof.Proof.Gen.KernelIdeal.Frame
import proofs.«104686_j37598143709432_2_alg».proof.Proof.CombineMatmulEntry
import proofs.«104686_j37598143709432_2_alg».proof.Proof.LibMatDot
import proofs.«104686_j37598143709432_2_alg».proof.Proof.LibColumn
import proofs.«104686_j37598143709432_2_alg».proof.Proof.LibWholeRect
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The body's arithmetic on a block of 5000 rows, read at `(p, q)`: the two row operands added, scaled by the block's
    column of scales, biased, clipped below at zero, multiplied by the weights (row `p` against column `q`), and scaled
    again. -/
theorem pay1_apply (x0 x1 : Vec Ideal S5000x64 .f32) (x2 : Vec Ideal S5000x1 .f32) (x3 : Vec Ideal S1x64 .f32)
    (x4 : Vec Ideal S64x64 .f32) (x5 : Vec Ideal S5000x1 .f32) (p : Fin 5000) (q : Fin 64) :
    k1_pay1 (F := Ideal) x0 x1 x2 x3 x4 x5 (ix2 p q)
      = (∑ k : Fin 64, max ((x0 (ix2 p k) + x1 (ix2 p k)) * x2 (ix2 p (0 : Fin 1)) + x3 (ix2 (0 : Fin 1) k)) 0 * x4 (ix2 k q))
          * x5 (ix2 p (0 : Fin 1)) := by
  unfold k1_pay1
  simp only [shapeCast_self]
  rw [mulf_apply, Cert.Lib.broadcastTo_a1_ab_apply]
  refine congrArg (· * x5 (ix2 p (0 : Fin 1))) ?_
  refine (Cert.Lib.matmul_plain_zero_apply _ none _ _ p q).trans ?_
  refine Finset.sum_congr rfl fun k _ => ?_
  rw [truncf_apply, truncf_apply, maximumf_apply, addf_apply, mulf_apply, addf_apply, broadcast_apply,
    Cert.Lib.broadcastTo_a1_ab_apply, broadcastTo_1b_ab_apply]
  show max _ (Ideal.ofBits .f32 0x00000000#32) * _ = _
  rw [Ideal.ofBits_zero_f32]

/-- With the same column of scales read twice, the body's arithmetic at any index of the block is the layer's entry of the
    block's operands. -/
theorem pay1_entry (x0 x1 : Vec Ideal S5000x64 .f32) (x2 : Vec Ideal S5000x1 .f32) (x3 : Vec Ideal S1x64 .f32)
    (x4 : Vec Ideal S64x64 .f32) (i : S5000x64.Idx) :
    k1_pay1 (F := Ideal) x0 x1 x2 x3 x4 x2 i = combineMatmulEntry x0 x1 x2 x3 x4 (i 0) (i 1) := by
  obtain ⟨p, q, rfl⟩ : ∃ (p : Fin 5000) (q : Fin 64), i = ix2 p q := ⟨i 0, i 1, eq_ix2 i⟩
  exact pay1_apply x0 x1 x2 x3 x4 x2 p q

/-- The printed index maps, decided over the grid: at point `t` the three row-blocked operands and the result are at block
    `(t, 0)`, the bias and the weights at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregate's block at point `t` is row `5000 t + p` of the aggregate. -/
theorem iblk1_0_apply (c : Dev nD) (agg : S50000x64.Idx → EReal) (hagg : V c main_v22 = agg) (t : Fin cfg1.N)
    (p : Fin 5000) (k : Fin 64) (P : Fin 50000) (hP : P.val = t.val * 5000 + p.val) :
    (iblk1 (F := Ideal) V c 0 t : Vec Ideal S5000x64 .f32) (ix2 p k) = agg (ix2 P k) := by
  obtain ⟨e0, e1, -⟩ := idx_facts1 t
  unfold iblk1
  rw [View.read_apply]
  show V c main_v22 _ = agg _
  rw [hagg]
  congr 1
  funext a
  apply Fin.ext
  match a with
  | ⟨0, _⟩ => show win1_0.index t (0 : Fin 2) * 5000 + 1 * p.val = P.val; rw [e0, hP]; omega
  | ⟨1, _⟩ => show win1_0.index t (1 : Fin 2) * 64 + 1 * k.val = k.val; rw [e1]; omega

/-- Row `p` of the node rows' block at point `t` is row `5000 t + p` of the node rows. -/
theorem iblk1_1_apply (c : Dev nD) (y : S50000x64.Idx → EReal) (hy : V c main_v12 = y) (t : Fin cfg1.N)
    (p : Fin 5000) (k : Fin 64) (P : Fin 50000) (hP : P.val = t.val * 5000 + p.val) :
    (iblk1 (F := Ideal) V c 1 t : Vec Ideal S5000x64 .f32) (ix2 p k) = y (ix2 P k) := by
  obtain ⟨-, -, e0, e1, -⟩ := idx_facts1 t
  unfold iblk1
  rw [View.read_apply]
  show V c main_v12 _ = y _
  rw [hy]
  congr 1
  funext a
  apply Fin.ext
  match a with
  | ⟨0, _⟩ => show win1_1.index t (0 : Fin 2) * 5000 + 1 * p.val = P.val; rw [e0, hP]; omega
  | ⟨1, _⟩ => show win1_1.index t (1 : Fin 2) * 64 + 1 * k.val = k.val; rw [e1]; omega

/-- Entry `p` of the scales' block at point `t` is entry `5000 t + p` of the scales. -/
theorem iblk1_2_apply (c : Dev nD) (d : S50000x1.Idx → EReal) (hd : V c main_v11 = d) (t : Fin cfg1.N)
    (p : Fin 5000) (P : Fin 50000) (hP : P.val = t.val * 5000 + p.val) :
    (iblk1 (F := Ideal) V c 2 t : Vec Ideal S5000x1 .f32) (ix2 p (0 : Fin 1)) = d (ix2 P (0 : Fin 1)) := by
  obtain ⟨-, -, -, -, e0, e1, -⟩ := idx_facts1 t
  unfold iblk1
  rw [View.read_apply]
  show V c main_v11 _ = d _
  rw [hd]
  congr 1
  funext a
  apply Fin.ext
  match a with
  | ⟨0, _⟩ => show win1_2.index t (0 : Fin 2) * 5000 + 1 * p.val = P.val; rw [e0, hP]; omega
  | ⟨1, _⟩ => show win1_2.index t (1 : Fin 2) * 1 + 1 * 0 = 0; rw [e1]

/-- The bias window's block at every point is the whole bias row. -/
theorem iblk1_3_apply (c : Dev nD) (b : S1x64.Idx → EReal) (hb : V c main_v23 = b) (t : Fin cfg1.N) (k : Fin 64) :
    (iblk1 (F := Ideal) V c 3 t : Vec Ideal S1x64 .f32) (ix2 (0 : Fin 1) k) = b (ix2 (0 : Fin 1) k) := by
  obtain ⟨-, -, -, -, -, -, e0, e1, -⟩ := idx_facts1 t
  unfold iblk1
  rw [View.read_apply]
  show V c main_v23 _ = b _
  rw [hb]
  congr 1
  funext a
  apply Fin.ext
  match a with
  | ⟨0, _⟩ => show win1_3.index t (0 : Fin 2) * 1 + 1 * 0 = 0; rw [e0]
  | ⟨1, _⟩ => show win1_3.index t (1 : Fin 2) * 64 + 1 * k.val = k.val; rw [e1]; omega

/-- The weight window's block at every point is the whole weight matrix. -/
theorem iblk1_4_apply (c : Dev nD) (w : S64x64.Idx → EReal) (hw : V c main_arg5 = w) (t : Fin cfg1.N) (k : Fin 64)
    (q Q : Fin 64) (hQ : Q.val = q.val) :
    (iblk1 (F := Ideal) V c 4 t : Vec Ideal S64x64 .f32) (ix2 k q) = w (ix2 k Q) := by
  obtain ⟨-, -, -, -, -, -, -, -, e0, e1, -⟩ := idx_facts1 t
  unfold iblk1
  rw [View.read_apply]
  show V c main_arg5 _ = w _
  rw [hw]
  congr 1
  funext a
  apply Fin.ext
  match a with
  | ⟨0, _⟩ => show win1_4.index t (0 : Fin 2) * 64 + 1 * k.val = k.val; rw [e0]; omega
  | ⟨1, _⟩ => show win1_4.index t (1 : Fin 2) * 64 + 1 * q.val = Q.val; rw [e1, hQ]; omega

/-- The layer's result as one array: entry `(p, q)` of the combine-and-multiply layer of the five input arrays. -/
abbrev layer1 (agg y : S50000x64.Idx → EReal) (d : S50000x1.Idx → EReal) (b : S1x64.Idx → EReal)
    (w : S64x64.Idx → EReal) : S50000x64.Idx → EReal := fun i => combineMatmulEntry agg y d b w (i 0) (i 1)

/-- What point `t` writes back is block `t` (rows `5000 t … 5000 t + 4999`) of the layer's result. -/
theorem flushed1_eq (c : Dev nD) (agg y : S50000x64.Idx → EReal) (d : S50000x1.Idx → EReal) (b : S1x64.Idx → EReal)
    (w : S64x64.Idx → EReal)
    (hagg : V c main_v22 = agg) (hy : V c main_v12 = y) (hd : V c main_v11 = d) (hb : V c main_v23 = b)
    (hw : V c main_arg5 = w) (t : Fin cfg1.N) :
    (dat1 (F := Ideal) V c).flushed 5 t = ((cfg1.win 5).blk t).view.read (Elt Ideal) (layer1 agg y d b w) := by
  show (cfg1.win 5).cut (grid1.coords t) ((dat1 V c).after 5 t) = _
  rw [after1_5]
  unfold out1_5
  rw [View.canon_unit_zero Cert.Lib.off2_zero]
  simp only [View.ld_unit_zero (S := S5000x64) Cert.Lib.off2_zero, View.ld_unit_zero (S := S5000x1) Cert.Lib.off2_zero,
    View.ld_unit_zero (S := S1x64) Cert.Lib.off2_zero, View.ld_unit_zero (S := S64x64) Cert.Lib.off2_zero]
  obtain ⟨-, -, -, -, -, -, -, -, -, -, e0, e1⟩ := idx_facts1 t
  funext j
  rw [View.read_apply]
  have hP : (((cfg1.win 5).blk t).view.emb j 0).val = t.val * 5000 + (j 0).val := by
    show win1_5.index t (0 : Fin 2) * 5000 + 1 * (j 0).val = _; rw [e0]; omega
  have hQ : (((cfg1.win 5).blk t).view.emb j 1).val = (j 1).val := by
    show win1_5.index t (1 : Fin 2) * 64 + 1 * (j 1).val = _; rw [e1]; omega
  refine (pay1_entry _ _ _ _ _ _).trans ?_
  refine combineMatmulEntry_block _ _ _ _ _ agg y d b w _ (((cfg1.win 5).blk t).view.emb j 0) _
    (((cfg1.win 5).blk t).view.emb j 1) (fun k => ?_) (fun k => ?_) ?_ (fun k => ?_) (fun k => ?_)
  · exact iblk1_0_apply V c agg hagg t _ k _ hP
  · exact iblk1_1_apply V c y hy t _ k _ hP
  · exact iblk1_2_apply V c d hd t _ _ hP
  · exact iblk1_3_apply V c b hb t k
  · exact iblk1_4_apply V c w hw t k _ _ hQ

/-- An index of the result array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v24).slice (win1_5.rect t)).set ↔ _
  rw [View.set_slice_whole, Rect.mem_set_unit]
  exact Iff.rfl

/-- Every index of the result array is in the block of the point that handles its row: row `r` is in block `r / 5000`. -/
theorem cover1 (i : S50000x64.Idx) :
    ∃ t : Fin cfg1.N, (cfg1.win 5).flush t = true ∧ i ∈ ((cfg1.win 5).blk t).view.set := by
  have h0 : (i 0).val < 50000 := (i 0).isLt
  have h1 : (i 1).val < 64 := (i 1).isLt
  have hN : grid1.N = 10 := N_1
  have ht : (i 0).val / 5000 < cfg1.N := by show _ < grid1.N; rw [hN]; omega
  obtain ⟨-, -, -, -, -, -, -, -, -, -, e0, e1⟩ := idx_facts1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]; omega

/-- The result array after the region is the layer's result. -/
theorem final1 (c : Dev nD) (agg y : S50000x64.Idx → EReal) (d : S50000x1.Idx → EReal) (b : S1x64.Idx → EReal)
    (w : S64x64.Idx → EReal)
    (hagg : V c main_v22 = agg) (hy : V c main_v12 = y) (hd : V c main_v11 = d) (hb : V c main_v23 = b)
    (hw : V c main_arg5 = w) :
    (dat1 (F := Ideal) V c).arrAt 5 cfg1.N = layer1 agg y d b w :=
  (dat1 (F := Ideal) V c).arrAt_eq_of_cover 5 (layer1 agg y d b w)
    (fun t _ => flushed1_eq V c agg y d b w hagg hy hd hb hw t) cover1

/-- Region 1 at entry `(p, q)`: the combined, biased, clipped row times `W2`, scaled by the node's scale. -/
theorem region1_entry (c : Dev nD) (agg y : S50000x64.Idx → EReal) (d : S50000x1.Idx → EReal) (b : S1x64.Idx → EReal)
    (w : S64x64.Idx → EReal)
    (hagg : V c main_v22 = agg) (hy : V c main_v12 = y) (hd : V c main_v11 = d) (hb : V c main_v23 = b)
    (hw : V c main_arg5 = w) (p : Fin 50000) (q : Fin 64) :
    (dat1 (F := Ideal) V c).arrAt 5 cfg1.N (ix2 p q)
      = (∑ k : Fin 64, max ((agg (ix2 p k) + y (ix2 p k)) * d (ix2 p (0 : Fin 1)) + b (ix2 (0 : Fin 1) k)) 0 * w (ix2 k q))
          * d (ix2 p (0 : Fin 1)) := by
  rw [final1 V c agg y d b w hagg hy hd hb hw]
  rfl

end Cert.KernelIdeal.RegionValue

end
-- ==== Proof.Region2.lean ====
/-
  Kernel region 2: a combine-and-multiply layer of the graph convolution, as one array.

  The region walks the 50000 nodes in ten blocks of 5000 rows. At each block it adds the aggregated neighbour rows to the
  nodes' own rows, scales each row by its node's scale, adds the bias row, clips below at zero, multiplies by the 64 × 64
  weight matrix `W3`, and scales each row again. Each block's result depends only on the same rows of the row-blocked
  operands and on the whole bias and weights, so the ten blocks written back are the ten row blocks of ONE array: the
  layer's result, entry by entry. The blocks cover the array, so that array is what the region leaves.
-/
import proofs.«104686_j37598143709432_2_alg».proof.Proof.Gen.KernelIdeal.Frame
import proofs.«104686_j37598143709432_2_alg».proof.Proof.CombineMatmulEntry
import proofs.«104686_j37598143709432_2_alg».proof.Proof.LibMatDot
import proofs.«104686_j37598143709432_2_alg».proof.Proof.LibColumn
import proofs.«104686_j37598143709432_2_alg».proof.Proof.LibWholeRect
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The body's arithmetic on a block of 5000 rows, read at `(p, q)`: the two row operands added, scaled by the block's
    column of scales, biased, clipped below at zero, multiplied by the weights (row `p` against column `q`), and scaled
    again. -/
theorem pay2_apply (x0 x1 : Vec Ideal S5000x64 .f32) (x2 : Vec Ideal S5000x1 .f32) (x3 : Vec Ideal S1x64 .f32)
    (x4 : Vec Ideal S64x64 .f32) (x5 : Vec Ideal S5000x1 .f32) (p : Fin 5000) (q : Fin 64) :
    k2_pay1 (F := Ideal) x0 x1 x2 x3 x4 x5 (ix2 p q)
      = (∑ k : Fin 64, max ((x0 (ix2 p k) + x1 (ix2 p k)) * x2 (ix2 p (0 : Fin 1)) + x3 (ix2 (0 : Fin 1) k)) 0 * x4 (ix2 k q))
          * x5 (ix2 p (0 : Fin 1)) := by
  unfold k2_pay1
  simp only [shapeCast_self]
  rw [mulf_apply, Cert.Lib.broadcastTo_a1_ab_apply]
  refine congrArg (· * x5 (ix2 p (0 : Fin 1))) ?_
  refine (Cert.Lib.matmul_plain_zero_apply _ none _ _ p q).trans ?_
  refine Finset.sum_congr rfl fun k _ => ?_
  rw [truncf_apply, truncf_apply, maximumf_apply, addf_apply, mulf_apply, addf_apply, broadcast_apply,
    Cert.Lib.broadcastTo_a1_ab_apply, broadcastTo_1b_ab_apply]
  show max _ (Ideal.ofBits .f32 0x00000000#32) * _ = _
  rw [Ideal.ofBits_zero_f32]

/-- With the same column of scales read twice, the body's arithmetic at any index of the block is the layer's entry of the
    block's operands. -/
theorem pay2_entry (x0 x1 : Vec Ideal S5000x64 .f32) (x2 : Vec Ideal S5000x1 .f32) (x3 : Vec Ideal S1x64 .f32)
    (x4 : Vec Ideal S64x64 .f32) (i : S5000x64.Idx) :
    k2_pay1 (F := Ideal) x0 x1 x2 x3 x4 x2 i = combineMatmulEntry x0 x1 x2 x3 x4 (i 0) (i 1) := by
  obtain ⟨p, q, rfl⟩ : ∃ (p : Fin 5000) (q : Fin 64), i = ix2 p q := ⟨i 0, i 1, eq_ix2 i⟩
  exact pay2_apply x0 x1 x2 x3 x4 x2 p q

/-- The printed index maps, decided over the grid: at point `t` the three row-blocked operands and the result are at block
    `(t, 0)`, the bias and the weights at block `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the aggregate's block at point `t` is row `5000 t + p` of the aggregate. -/
theorem iblk2_0_apply (c : Dev nD) (agg : S50000x64.Idx → EReal) (hagg : V c main_v34 = agg) (t : Fin cfg2.N)
    (p : Fin 5000) (k : Fin 64) (P : Fin 50000) (hP : P.val = t.val * 5000 + p.val) :
    (iblk2 (F := Ideal) V c 0 t : Vec Ideal S5000x64 .f32) (ix2 p k) = agg (ix2 P k) := by
  obtain ⟨e0, e1, -⟩ := idx_facts2 t
  unfold iblk2
  rw [View.read_apply]
  show V c main_v34 _ = agg _
  rw [hagg]
  congr 1
  funext a
  apply Fin.ext
  match a with
  | ⟨0, _⟩ => show win2_0.index t (0 : Fin 2) * 5000 + 1 * p.val = P.val; rw [e0, hP]; omega
  | ⟨1, _⟩ => show win2_0.index t (1 : Fin 2) * 64 + 1 * k.val = k.val; rw [e1]; omega

/-- Row `p` of the node rows' block at point `t` is row `5000 t + p` of the node rows. -/
theorem iblk2_1_apply (c : Dev nD) (y : S50000x64.Idx → EReal) (hy : V c main_v24 = y) (t : Fin cfg2.N)
    (p : Fin 5000) (k : Fin 64) (P : Fin 50000) (hP : P.val = t.val * 5000 + p.val) :
    (iblk2 (F := Ideal) V c 1 t : Vec Ideal S5000x64 .f32) (ix2 p k) = y (ix2 P k) := by
  obtain ⟨-, -, e0, e1, -⟩ := idx_facts2 t
  unfold iblk2
  rw [View.read_apply]
  show V c main_v24 _ = y _
  rw [hy]
  congr 1
  funext a
  apply Fin.ext
  match a with
  | ⟨0, _⟩ => show win2_1.index t (0 : Fin 2) * 5000 + 1 * p.val = P.val; rw [e0, hP]; omega
  | ⟨1, _⟩ => show win2_1.index t (1 : Fin 2) * 64 + 1 * k.val = k.val; rw [e1]; omega

/-- Entry `p` of the scales' block at point `t` is entry `5000 t + p` of the scales. -/
theorem iblk2_2_apply (c : Dev nD) (d : S50000x1.Idx → EReal) (hd : V c main_v11 = d) (t : Fin cfg2.N)
    (p : Fin 5000) (P : Fin 50000) (hP : P.val = t.val * 5000 + p.val) :
    (iblk2 (F := Ideal) V c 2 t : Vec Ideal S5000x1 .f32) (ix2 p (0 : Fin 1)) = d (ix2 P (0 : Fin 1)) := by
  obtain ⟨-, -, -, -, e0, e1, -⟩ := idx_facts2 t
  unfold iblk2
  rw [View.read_apply]
  show V c main_v11 _ = d _
  rw [hd]
  congr 1
  funext a
  apply Fin.ext
  match a with
  | ⟨0, _⟩ => show win2_2.index t (0 : Fin 2) * 5000 + 1 * p.val = P.val; rw [e0, hP]; omega
  | ⟨1, _⟩ => show win2_2.index t (1 : Fin 2) * 1 + 1 * 0 = 0; rw [e1]

/-- The bias window's block at every point is the whole bias row. -/
theorem iblk2_3_apply (c : Dev nD) (b : S1x64.Idx → EReal) (hb : V c main_v35 = b) (t : Fin cfg2.N) (k : Fin 64) :
    (iblk2 (F := Ideal) V c 3 t : Vec Ideal S1x64 .f32) (ix2 (0 : Fin 1) k) = b (ix2 (0 : Fin 1) k) := by
  obtain ⟨-, -, -, -, -, -, e0, e1, -⟩ := idx_facts2 t
  unfold iblk2
  rw [View.read_apply]
  show V c main_v35 _ = b _
  rw [hb]
  congr 1
  funext a
  apply Fin.ext
  match a with
  | ⟨0, _⟩ => show win2_3.index t (0 : Fin 2) * 1 + 1 * 0 = 0; rw [e0]
  | ⟨1, _⟩ => show win2_3.index t (1 : Fin 2) * 64 + 1 * k.val = k.val; rw [e1]; omega

/-- The weight window's block at every point is the whole weight matrix. -/
theorem iblk2_4_apply (c : Dev nD) (w : S64x64.Idx → EReal) (hw : V c main_arg7 = w) (t : Fin cfg2.N) (k : Fin 64)
    (q Q : Fin 64) (hQ : Q.val = q.val) :
    (iblk2 (F := Ideal) V c 4 t : Vec Ideal S64x64 .f32) (ix2 k q) = w (ix2 k Q) := by
  obtain ⟨-, -, -, -, -, -, -, -, e0, e1, -⟩ := idx_facts2 t
  unfold iblk2
  rw [View.read_apply]
  show V c main_arg7 _ = w _
  rw [hw]
  congr 1
  funext a
  apply Fin.ext
  match a with
  | ⟨0, _⟩ => show win2_4.index t (0 : Fin 2) * 64 + 1 * k.val = k.val; rw [e0]; omega
  | ⟨1, _⟩ => show win2_4.index t (1 : Fin 2) * 64 + 1 * q.val = Q.val; rw [e1, hQ]; omega

/-- The layer's result as one array: entry `(p, q)` of the combine-and-multiply layer of the five input arrays. -/
abbrev layer2 (agg y : S50000x64.Idx → EReal) (d : S50000x1.Idx → EReal) (b : S1x64.Idx → EReal)
    (w : S64x64.Idx → EReal) : S50000x64.Idx → EReal := fun i => combineMatmulEntry agg y d b w (i 0) (i 1)

/-- What point `t` writes back is block `t` (rows `5000 t … 5000 t + 4999`) of the layer's result. -/
theorem flushed2_eq (c : Dev nD) (agg y : S50000x64.Idx → EReal) (d : S50000x1.Idx → EReal) (b : S1x64.Idx → EReal)
    (w : S64x64.Idx → EReal)
    (hagg : V c main_v34 = agg) (hy : V c main_v24 = y) (hd : V c main_v11 = d) (hb : V c main_v35 = b)
    (hw : V c main_arg7 = w) (t : Fin cfg2.N) :
    (dat2 (F := Ideal) V c).flushed 5 t = ((cfg2.win 5).blk t).view.read (Elt Ideal) (layer2 agg y d b w) := by
  show (cfg2.win 5).cut (grid2.coords t) ((dat2 V c).after 5 t) = _
  rw [after2_5]
  unfold out2_5
  rw [View.canon_unit_zero Cert.Lib.off2_zero]
  simp only [View.ld_unit_zero (S := S5000x64) Cert.Lib.off2_zero, View.ld_unit_zero (S := S5000x1) Cert.Lib.off2_zero,
    View.ld_unit_zero (S := S1x64) Cert.Lib.off2_zero, View.ld_unit_zero (S := S64x64) Cert.Lib.off2_zero]
  obtain ⟨-, -, -, -, -, -, -, -, -, -, e0, e1⟩ := idx_facts2 t
  funext j
  rw [View.read_apply]
  have hP : (((cfg2.win 5).blk t).view.emb j 0).val = t.val * 5000 + (j 0).val := by
    show win2_5.index t (0 : Fin 2) * 5000 + 1 * (j 0).val = _; rw [e0]; omega
  have hQ : (((cfg2.win 5).blk t).view.emb j 1).val = (j 1).val := by
    show win2_5.index t (1 : Fin 2) * 64 + 1 * (j 1).val = _; rw [e1]; omega
  refine (pay2_entry _ _ _ _ _ _).trans ?_
  refine combineMatmulEntry_block _ _ _ _ _ agg y d b w _ (((cfg2.win 5).blk t).view.emb j 0) _
    (((cfg2.win 5).blk t).view.emb j 1) (fun k => ?_) (fun k => ?_) ?_ (fun k => ?_) (fun k => ?_)
  · exact iblk2_0_apply V c agg hagg t _ k _ hP
  · exact iblk2_1_apply V c y hy t _ k _ hP
  · exact iblk2_2_apply V c d hd t _ _ hP
  · exact iblk2_3_apply V c b hb t k
  · exact iblk2_4_apply V c w hw t k _ _ hQ

/-- An index of the result array is in point `t`'s block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v36).slice (win2_5.rect t)).set ↔ _
  rw [View.set_slice_whole, Rect.mem_set_unit]
  exact Iff.rfl

/-- Every index of the result array is in the block of the point that handles its row: row `r` is in block `r / 5000`. -/
theorem cover2 (i : S50000x64.Idx) :
    ∃ t : Fin cfg2.N, (cfg2.win 5).flush t = true ∧ i ∈ ((cfg2.win 5).blk t).view.set := by
  have h0 : (i 0).val < 50000 := (i 0).isLt
  have h1 : (i 1).val < 64 := (i 1).isLt
  have hN : grid2.N = 10 := N_2
  have ht : (i 0).val / 5000 < cfg2.N := by show _ < grid2.N; rw [hN]; omega
  obtain ⟨-, -, -, -, -, -, -, -, -, -, e0, e1⟩ := idx_facts2 ⟨(i 0).val / 5000, ht⟩
  refine ⟨⟨(i 0).val / 5000, ht⟩, flush2_5 _, ?_⟩
  rw [mem_blk2]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 64 ≤ (i 1).val ∧ (i 1).val < win2_5.index ⟨(i 0).val / 5000, ht⟩ (1 : Fin 2) * 64 + 64
    rw [e1]; omega

/-- The result array after the region is the layer's result. -/
theorem final2 (c : Dev nD) (agg y : S50000x64.Idx → EReal) (d : S50000x1.Idx → EReal) (b : S1x64.Idx → EReal)
    (w : S64x64.Idx → EReal)
    (hagg : V c main_v34 = agg) (hy : V c main_v24 = y) (hd : V c main_v11 = d) (hb : V c main_v35 = b)
    (hw : V c main_arg7 = w) :
    (dat2 (F := Ideal) V c).arrAt 5 cfg2.N = layer2 agg y d b w :=
  (dat2 (F := Ideal) V c).arrAt_eq_of_cover 5 (layer2 agg y d b w)
    (fun t _ => flushed2_eq V c agg y d b w hagg hy hd hb hw t) cover2

/-- Region 2 at entry `(p, q)`: the combined, biased, clipped row times `W3`, scaled by the node's scale. -/
theorem region2_entry (c : Dev nD) (agg y : S50000x64.Idx → EReal) (d : S50000x1.Idx → EReal) (b : S1x64.Idx → EReal)
    (w : S64x64.Idx → EReal)
    (hagg : V c main_v34 = agg) (hy : V c main_v24 = y) (hd : V c main_v11 = d) (hb : V c main_v35 = b)
    (hw : V c main_arg7 = w) (p : Fin 50000) (q : Fin 64) :
    (dat2 (F := Ideal) V c).arrAt 5 cfg2.N (ix2 p q)
      = (∑ k : Fin 64, max ((agg (ix2 p k) + y (ix2 p k)) * d (ix2 p (0 : Fin 1)) + b (ix2 (0 : Fin 1) k)) 0 * w (ix2 k q))
          * d (ix2 p (0 : Fin 1)) := by
  rw [final2 V c agg y d b w hagg hy hd hb hw]
  rfl

end Cert.KernelIdeal.RegionValue

end
-- ==== Proof.Region3.lean ====
/-
  The fourth launch as one array: the last layer's combine.

  The launch walks the 50000 nodes in ten blocks of 5000 rows. At each block it adds the aggregated neighbour rows to
  the nodes' own rows, scales each row by its node's scale, adds the bias row and clips below at zero. A block's result
  depends only on the same rows of the row-blocked operands and on the whole bias, so the ten blocks written back are
  the ten row blocks of ONE array, the blocks cover it, and that array is what the launch leaves.
-/
import proofs.«104686_j37598143709432_2_alg».proof.Proof.Gen.KernelIdeal.Frame
import proofs.«104686_j37598143709432_2_alg».proof.Proof.LibColumn
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The body's arithmetic at entry `(p, q)` of a block: the two blocks' entries added, times the scale column's entry
    `p`, plus the bias row's entry `q`, clipped below at zero. -/
theorem pay3_apply (a0 y0 : Vec Ideal S5000x64 .f32) (d0 : Vec Ideal S5000x1 .f32) (b0 : Vec Ideal S1x64 .f32)
    (p : Fin 5000) (q : Fin 64) :
    k3_pay1 (F := Ideal) a0 y0 d0 b0 (ix2 p q)
      = max ((a0 (ix2 p q) + y0 (ix2 p q)) * d0 (ix2 p (0 : Fin 1)) + b0 (ix2 (0 : Fin 1) q)) 0 := by
  unfold k3_pay1
  rw [maximumf_apply, broadcast_apply, addf_apply, broadcastTo_1b_ab_apply, mulf_apply, Cert.Lib.broadcastTo_a1_ab_apply,
    addf_apply]
  simp only [shapeCast_self]
  rw [show (FloatOps.ofBits (F := Ideal) .f32 0x00000000#32) = 0 from Ideal.ofBits_zero_f32]

/-- The combined, biased, clipped entry: the whole output array of region 3 as one function of its four input arrays,
    entry by entry. -/
def combinedClipped (agg y : S50000x64.Idx → EReal) (d : S50000x1.Idx → EReal) (b : S1x64.Idx → EReal) :
    S50000x64.Idx → EReal :=
  fun i => max ((agg i + y i) * d (ix2 (⟨(i 0).val, idx2_lt0 i⟩ : Fin 50000) (0 : Fin 1))
    + b (ix2 (0 : Fin 1) (⟨(i 1).val, idx2_lt1 i⟩ : Fin 64))) 0

/-- A block entry against the array entry it sits at: when the four blocks read the arrays at array index `i`, its row
    and its column, the body's result at `(p, q)` is `combinedClipped` at `i`. -/
theorem pay3_eq_combinedClipped (agg y : S50000x64.Idx → EReal) (d : S50000x1.Idx → EReal) (b : S1x64.Idx → EReal)
    (a0 y0 : Vec Ideal S5000x64 .f32) (d0 : Vec Ideal S5000x1 .f32) (b0 : Vec Ideal S1x64 .f32)
    (i : S50000x64.Idx) (p : Fin 5000) (q : Fin 64)
    (ha : a0 (ix2 p q) = agg i) (hy : y0 (ix2 p q) = y i)
    (hd : d0 (ix2 p (0 : Fin 1)) = d (ix2 (⟨(i 0).val, idx2_lt0 i⟩ : Fin 50000) (0 : Fin 1)))
    (hb : b0 (ix2 (0 : Fin 1) q) = b (ix2 (0 : Fin 1) (⟨(i 1).val, idx2_lt1 i⟩ : Fin 64))) :
    k3_pay1 (F := Ideal) a0 y0 d0 b0 (ix2 p q) = combinedClipped agg y d b i := by
  rw [pay3_apply, ha, hy, hd, hb]
  rfl

/-- The printed zero offsets are the zero function. -/
theorem off3_zero : (![0, 0] : Fin 2 → Nat) = fun _ => 0 := funext fun a => by fin_cases a <;> rfl

/-- The printed index maps, decided over the grid: point `t` takes row block `t` of the node arrays and the whole of the
    bias row. -/
theorem idx_facts3 : ∀ t : Fin cfg3.N, win3_4.index t (0 : Fin 2) = t.val ∧ win3_4.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 :=
  (by decide +kernel : ∀ t : Fin grid3.N, _)

/-- What point `t` writes back is block `t` of `combinedClipped` of the four input arrays as the region finds them. -/
theorem flushed3_eq (c : Dev nD) (t : Fin cfg3.N) :
    (dat3 (F := Ideal) V c).flushed 4 t
      = ((cfg3.win 4).blk t).view.read (Elt Ideal) (combinedClipped (V c main_v46) (V c main_v36) (V c main_v11) (V c main_v47)) := by
  show (cfg3.win 4).cut (grid3.coords t) ((dat3 (F := Ideal) V c).after 4 t) = _
  rw [after3_4]
  unfold out3_4
  rw [View.canon_unit_zero off3_zero]
  simp only [View.ld_unit_zero (S := S5000x64) off3_zero, View.ld_unit_zero (S := S5000x1) off3_zero,
    View.ld_unit_zero (S := S1x64) off3_zero]
  obtain ⟨e0, e1, e2, e3, e4, e5, e6, e7, e8, e9⟩ := idx_facts3 t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (iblk3 V c 3 t) (ix2 p q)
    = combinedClipped (V c main_v46) (V c main_v36) (V c main_v11) (V c main_v47) (((cfg3.win 4).blk t).view.emb (ix2 p q))
  refine pay3_eq_combinedClipped (V c main_v46) (V c main_v36) (V c main_v11) (V c main_v47)
    (iblk3 V c 0 t) (iblk3 V c 1 t) (iblk3 V c 2 t) (iblk3 V c 3 t)
    (((cfg3.win 4).blk t).view.emb (ix2 p q)) p q ?_ ?_ ?_ ?_
  · show V c main_v46 (((cfg3.win 0).blk t).view.emb (ix2 p q)) = _
    refine congrArg _ (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 64 + 1 * q.val = win3_4.index t (1 : Fin 2) * 64 + 1 * q.val; omega
  · show V c main_v36 (((cfg3.win 1).blk t).view.emb (ix2 p q)) = _
    refine congrArg _ (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 64 + 1 * q.val = win3_4.index t (1 : Fin 2) * 64 + 1 * q.val; omega
  · show V c main_v11 (((cfg3.win 2).blk t).view.emb (ix2 p (0 : Fin 1))) = _
    refine congrArg _ (funext fun a => Fin.ext ?_)
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  · show V c main_v47 (((cfg3.win 3).blk t).view.emb (ix2 (0 : Fin 1) q)) = _
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * q.val = win3_4.index t (1 : Fin 2) * 64 + 1 * q.val; omega

/-- An index of the output array is in point `t`'s block iff each coordinate is in the block's range on its axis. -/
theorem mem_blk3 (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v48).slice (win3_4.rect t)).set ↔ _
  rw [View.set_slice_whole, Rect.mem_set_unit]
  exact Iff.rfl

/-- Every entry of the output array lies in the block of the point that handles its row: row `r` is in block `r / 5000`. -/
theorem cover3 (i : S50000x64.Idx) :
    ∃ t : Fin cfg3.N, (cfg3.win 4).flush t = true ∧ i ∈ ((cfg3.win 4).blk t).view.set := by
  have hi0 : (i 0).val < 50000 := idx2_lt0 i
  have hi1 : (i 1).val < 64 := idx2_lt1 i
  have hN : grid3.N = 10 := N_3
  refine ⟨⟨(i 0).val / 5000, by show (i 0).val / 5000 < grid3.N; omega⟩, flush3_4 _, ?_⟩
  rw [mem_blk3]
  obtain ⟨e0, e1, -⟩ := idx_facts3 ⟨(i 0).val / 5000, by show (i 0).val / 5000 < grid3.N; omega⟩
  intro a
  match a with
  | ⟨0, _⟩ =>
    show win3_4.index ⟨(i 0).val / 5000, _⟩ (0 : Fin 2) * 5000 ≤ (i 0).val ∧ (i 0).val < win3_4.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, _⟩ (1 : Fin 2) * 64 ≤ (i 1).val ∧ (i 1).val < win3_4.index ⟨(i 0).val / 5000, _⟩ (1 : Fin 2) * 64 + 64
    rw [e1]; omega

/-- The output array after the run is `combinedClipped` of the four input arrays as the region finds them. -/
theorem final3 (c : Dev nD) :
    (dat3 (F := Ideal) V c).arrAt 4 cfg3.N = combinedClipped (V c main_v46) (V c main_v36) (V c main_v11) (V c main_v47) :=
  (dat3 (F := Ideal) V c).arrAt_eq_of_cover 4 (combinedClipped (V c main_v46) (V c main_v36) (V c main_v11) (V c main_v47))
    (fun t _ => flushed3_eq V c t) cover3

/-- Region 3 at entry `(p, q)`: the combined, biased, clipped entry. -/
theorem region3_entry (c : Dev nD) (agg y : S50000x64.Idx → EReal) (d : S50000x1.Idx → EReal) (b : S1x64.Idx → EReal)
    (hagg : V c main_v46 = agg) (hy : V c main_v36 = y) (hd : V c main_v11 = d) (hb : V c main_v47 = b)
    (p : Fin 50000) (q : Fin 64) :
    (dat3 (F := Ideal) V c).arrAt 4 cfg3.N (ix2 p q)
      = max ((agg (ix2 p q) + y (ix2 p q)) * d (ix2 p (0 : Fin 1)) + b (ix2 (0 : Fin 1) q)) 0 := by
  subst hagg hy hd hb
  rw [final3]
  rfl

end Cert.KernelIdeal.RegionValue

end
-- ==== Proof.LibNodeMean.lean ====
/-
  The neighbour mean as whole arrays: a sum per node and feature, scaled by the node's clamped count.

  A per-node vector `v` laid along the feature axis — first as a column `[N, 1]`, then repeated `K` times — reads `v p`
  at every entry `(p, k)`. With `c` the per-node counts, the array of sums multiplied by the broadcast of
  `1 / max c 1` is, entry by entry, the array of sums divided by the broadcast of `max c 1`: the divisor is at least one,
  so never zero, and off zero the quotient of extended reals is the product with the inverse whatever the dividend.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-- The word `0x3F800000` is the number one. -/
theorem one_word_f32 : Ideal.ofBits .f32 0x3F800000#32 = 1 := by
  simp [Ideal.ofBits, Ideal.ieee, -EReal.coe_mul]; norm_num

variable {α : Type} {N K : ℕ}

/-- A per-node vector as a column `[N, 1]`, then repeated along a second axis of extent `K`: at `(p, k)` it is `v p`. -/
theorem nodeBroadcast_apply (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) (p : Fin N) (k : Fin K) :
    broadcastInDim ⟨2, ![N, K]⟩ ![0, 1] h2 (broadcastInDim ⟨2, ![N, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if N = 1 then 0 else p.val
      have hp : p.val < N := p.isLt
      split
      · omega
      · rfl
    | ⟨1, _⟩ => show 0 = if (1 : ℕ) = 1 then 0 else k.val; rw [if_pos rfl]
  · match a with
    | ⟨0, _⟩ =>
      show p.val = if N = 1 then 0 else p.val
      have hp : p.val < N := p.isLt
      split
      · omega
      · rfl

/-- A scalar repeated over a vector reads the scalar everywhere. -/
theorem scalarBroadcast_apply (x : (⟨0, ![]⟩ : Shape).Idx → α)
    (h0 : (⟨0, ![]⟩ : Shape).BroadcastsInDim ⟨1, ![N]⟩ (![] : Fin 0 → Fin 1)) (i : (⟨1, ![N]⟩ : Shape).Idx) :
    broadcastInDim ⟨1, ![N]⟩ ![] h0 x i = x ix0 :=
  broadcastInDim_apply _ h0 x i ix0 fun a => a.elim0

/-- THE MEAN, either way: the sums times the broadcast reciprocal of the clamped counts are the sums divided by the
    broadcast clamped counts, as whole arrays on the extended reals. -/
theorem mean_by_reciprocal (S : FVec Ideal ⟨2, ![N, K]⟩ .f32) (cnt : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) :
    mulf S (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf cnt (broadcastInDim ⟨1, ![N]⟩ ![] h0 (constant (F := Ideal) ⟨0, ![]⟩ .f32 0x3F800000#32))))))
      = Host.divf S (broadcastInDim ⟨2, ![N, K]⟩ ![0, 1] h2 (broadcastInDim ⟨2, ![N, 1]⟩ ![0] h1
          (maximumf cnt (broadcastInDim ⟨1, ![N]⟩ ![] h0 (constant (F := Ideal) ⟨0, ![]⟩ .f32 0x3F800000#32))))) := by
  funext i
  obtain ⟨p, k, rfl⟩ : ∃ (p : Fin N) (k : Fin K), i = ix2 p k := ⟨i 0, i 1, eq_ix2 i⟩
  have e1 := nodeBroadcast_apply
    (Host.divf (broadcastInDim ⟨1, ![N]⟩ ![] h0 (constant (F := Ideal) ⟨0, ![]⟩ .f32 0x3F800000#32))
      (maximumf cnt (broadcastInDim ⟨1, ![N]⟩ ![] h0 (constant (F := Ideal) ⟨0, ![]⟩ .f32 0x3F800000#32)))) h1 h2 p k
  have e2 := nodeBroadcast_apply
    (maximumf cnt (broadcastInDim ⟨1, ![N]⟩ ![] h0 (constant (F := Ideal) ⟨0, ![]⟩ .f32 0x3F800000#32))) h1 h2 p k
  have e0 : broadcastInDim ⟨1, ![N]⟩ ![] h0 (constant (F := Ideal) ⟨0, ![]⟩ .f32 0x3F800000#32) (ix1 p) = (1 : EReal) :=
    (scalarBroadcast_apply _ h0 (ix1 p)).trans one_word_f32
  show S (ix2 p k) * _ = Ideal.div (S (ix2 p k)) _
  rw [e1, e2]
  show S (ix2 p k) * Ideal.div (broadcastInDim ⟨1, ![N]⟩ ![] h0 (constant (F := Ideal) ⟨0, ![]⟩ .f32 0x3F800000#32) (ix1 p))
      (max (cnt (ix1 p)) (broadcastInDim ⟨1, ![N]⟩ ![] h0 (constant (F := Ideal) ⟨0, ![]⟩ .f32 0x3F800000#32) (ix1 p)))
    = Ideal.div (S (ix2 p k))
      (max (cnt (ix1 p)) (broadcastInDim ⟨1, ![N]⟩ ![] h0 (constant (F := Ideal) ⟨0, ![]⟩ .f32 0x3F800000#32) (ix1 p)))
  rw [e0]
  have hy : max (cnt (ix1 p)) (1 : EReal) ≠ 0 := ne_of_gt (lt_of_lt_of_le zero_lt_one (le_max_right _ _))
  unfold Ideal.div
  rw [if_neg hy, if_neg hy, one_mul]

end Cert.Lib

end
-- ==== Proof.Region4.lean ====
/-
  The fifth launch as one array: mean pooling and the final linear map.

  The launch has a single grid point whose blocks are the whole arrays. It clips the per-graph counts below at one,
  divides each graph's feature sums by its clipped count, multiplies the 256 × 64 result by the 64 × 2 weights and adds
  the bias row. The one block written back is the whole output array.
-/
import proofs.«104686_j37598143709432_2_alg».proof.Proof.Gen.KernelIdeal.Frame
import proofs.«104686_j37598143709432_2_alg».proof.Proof.LibMatDot
import proofs.«104686_j37598143709432_2_alg».proof.Proof.LibColumn
import proofs.«104686_j37598143709432_2_alg».proof.Proof.LibNodeMean
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The body's arithmetic at entry `(g, t)`: row `g` of the sums, each entry divided by the row's count clamped below
    by one, against column `t` of the weights (the narrowing of the operands is the identity on extended reals, and the
    accumulator starts at zero), plus the bias row's entry `t`. -/
theorem pay4_apply (n0 : Vec Ideal S256x1 .f32) (s0 : Vec Ideal S256x64 .f32) (w0 : Vec Ideal S64x2 .f32) (b0 : Vec Ideal S1x2 .f32)
    (g : Fin 256) (t : Fin 2) :
    k4_pay1 (F := Ideal) n0 s0 w0 b0 (ix2 g t)
      = (∑ k : Fin 64, Ideal.div (s0 (ix2 g k)) (max (n0 (ix2 g (0 : Fin 1))) 1) * w0 (ix2 k t)) + b0 (ix2 (0 : Fin 1) t) := by
  unfold k4_pay1
  rw [addf_apply, broadcastTo_1b_ab_apply]
  congr 1
  · refine (Cert.Lib.matmul_plain_zero_apply (a := 256) (K := 64) (b := 2) dot_S256x64_S64x2_S256x2_1_0_0_1_n_n_wf none _ _ g t).trans ?_
    refine Finset.sum_congr rfl fun k _ => ?_
    rw [truncf_apply, truncf_apply, divf_apply, Cert.Lib.broadcastTo_a1_ab_apply, maximumf_apply, broadcast_apply]
    simp only [shapeCast_self]
    rw [show (FloatOps.ofBits (F := Ideal) .f32 0x3F800000#32) = 1 from Cert.Lib.one_word_f32]
  · rw [shapeCast_self]

/-- Each graph's mean feature row times the weights, plus the bias: the whole output array of region 4 as one function
    of its four input arrays, entry by entry. The mean divides the graph's summed row by its node count clamped below
    by one. -/
def pooledLinear (s : S256x64.Idx → EReal) (n : S256x1.Idx → EReal) (w : S64x2.Idx → EReal) (b : S1x2.Idx → EReal) :
    S256x2.Idx → EReal :=
  fun i => (∑ k : Fin 64, Ideal.div (s (ix2 (⟨(i 0).val, idx2_lt0 i⟩ : Fin 256) k))
      (max (n (ix2 (⟨(i 0).val, idx2_lt0 i⟩ : Fin 256) (0 : Fin 1))) 1) * w (ix2 k (⟨(i 1).val, idx2_lt1 i⟩ : Fin 2)))
    + b (ix2 (0 : Fin 1) (⟨(i 1).val, idx2_lt1 i⟩ : Fin 2))

/-- A block entry against the array entry it sits at: when the four blocks read the arrays at the row and column of
    array index `i`, the body's result at `(g, t)` is `pooledLinear` at `i`. -/
theorem pay4_eq_pooledLinear (s : S256x64.Idx → EReal) (n : S256x1.Idx → EReal) (w : S64x2.Idx → EReal) (b : S1x2.Idx → EReal)
    (n0 : Vec Ideal S256x1 .f32) (s0 : Vec Ideal S256x64 .f32) (w0 : Vec Ideal S64x2 .f32) (b0 : Vec Ideal S1x2 .f32)
    (i : S256x2.Idx) (g : Fin 256) (t : Fin 2)
    (hs : ∀ k : Fin 64, s0 (ix2 g k) = s (ix2 (⟨(i 0).val, idx2_lt0 i⟩ : Fin 256) k))
    (hn : n0 (ix2 g (0 : Fin 1)) = n (ix2 (⟨(i 0).val, idx2_lt0 i⟩ : Fin 256) (0 : Fin 1)))
    (hw : ∀ k : Fin 64, w0 (ix2 k t) = w (ix2 k (⟨(i 1).val, idx2_lt1 i⟩ : Fin 2)))
    (hb : b0 (ix2 (0 : Fin 1) t) = b (ix2 (0 : Fin 1) (⟨(i 1).val, idx2_lt1 i⟩ : Fin 2))) :
    k4_pay1 (F := Ideal) n0 s0 w0 b0 (ix2 g t) = pooledLinear s n w b i := by
  rw [pay4_apply, hb, hn]
  unfold pooledLinear
  congr 1
  exact Finset.sum_congr rfl fun k _ => by rw [hs k, hw k]

/-- The printed zero offsets are the zero function. -/
theorem off4_zero : (![0, 0] : Fin 2 → Nat) = fun _ => 0 := funext fun a => by fin_cases a <;> rfl

/-- The printed index maps, decided over the grid: every window's block is its whole array. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- What the one point writes back is `pooledLinear` of the four input arrays as the region finds them, read through
    the whole-array block. -/
theorem flushed4_eq (c : Dev nD) (t : Fin cfg4.N) :
    (dat4 (F := Ideal) V c).flushed 4 t
      = ((cfg4.win 4).blk t).view.read (Elt Ideal) (pooledLinear (V c main_v51) (V c main_v56) (V c main_arg9) (V c main_v57)) := by
  show (cfg4.win 4).cut (grid4.coords t) ((dat4 (F := Ideal) V c).after 4 t) = _
  rw [after4_4]
  unfold out4_4
  rw [View.canon_unit_zero off4_zero]
  simp only [View.ld_unit_zero (S := S256x64) off4_zero, View.ld_unit_zero (S := S256x1) off4_zero,
    View.ld_unit_zero (S := S64x2) off4_zero, View.ld_unit_zero (S := S1x2) off4_zero]
  obtain ⟨e0, e1, e2, e3, e4, e5, e6, e7, e8, e9⟩ := idx_facts4 t
  funext j
  obtain ⟨g, u, rfl⟩ : ∃ (g : Fin 256) (u : Fin 2), j = ix2 g u := ⟨j 0, j 1, eq_ix2 j⟩
  show k4_pay1 (F := Ideal) (iblk4 V c 1 t) (iblk4 V c 0 t) (iblk4 V c 2 t) (iblk4 V c 3 t) (ix2 g u)
    = pooledLinear (V c main_v51) (V c main_v56) (V c main_arg9) (V c main_v57) (((cfg4.win 4).blk t).view.emb (ix2 g u))
  refine pay4_eq_pooledLinear (V c main_v51) (V c main_v56) (V c main_arg9) (V c main_v57)
    (iblk4 V c 1 t) (iblk4 V c 0 t) (iblk4 V c 2 t) (iblk4 V c 3 t)
    (((cfg4.win 4).blk t).view.emb (ix2 g u)) g u (fun k => ?_) ?_ (fun k => ?_) ?_
  · show V c main_v51 (((cfg4.win 0).blk t).view.emb (ix2 g k)) = _
    refine congrArg _ (funext fun a => Fin.ext ?_)
    match a with
    | ⟨0, _⟩ => show win4_0.index t (0 : Fin 2) * 256 + 1 * g.val = win4_4.index t (0 : Fin 2) * 256 + 1 * g.val; omega
    | ⟨1, _⟩ => show win4_0.index t (1 : Fin 2) * 64 + 1 * k.val = k.val; omega
  · show V c main_v56 (((cfg4.win 1).blk t).view.emb (ix2 g (0 : Fin 1))) = _
    refine congrArg _ (funext fun a => Fin.ext ?_)
    match a with
    | ⟨0, _⟩ => show win4_1.index t (0 : Fin 2) * 256 + 1 * g.val = win4_4.index t (0 : Fin 2) * 256 + 1 * g.val; omega
    | ⟨1, _⟩ => show win4_1.index t (1 : Fin 2) * 1 + 1 * 0 = 0; omega
  · show V c main_arg9 (((cfg4.win 2).blk t).view.emb (ix2 k u)) = _
    refine congrArg _ (funext fun a => Fin.ext ?_)
    match a with
    | ⟨0, _⟩ => show win4_2.index t (0 : Fin 2) * 64 + 1 * k.val = k.val; omega
    | ⟨1, _⟩ => show win4_2.index t (1 : Fin 2) * 2 + 1 * u.val = win4_4.index t (1 : Fin 2) * 2 + 1 * u.val; omega
  · show V c main_v57 (((cfg4.win 3).blk t).view.emb (ix2 (0 : Fin 1) u)) = _
    refine congrArg _ (funext fun a => Fin.ext ?_)
    match a with
    | ⟨0, _⟩ => show win4_3.index t (0 : Fin 2) * 1 + 1 * 0 = 0; omega
    | ⟨1, _⟩ => show win4_3.index t (1 : Fin 2) * 2 + 1 * u.val = win4_4.index t (1 : Fin 2) * 2 + 1 * u.val; omega

/-- An index of the output array is in point `t`'s block iff each coordinate is in the block's range on its axis. -/
theorem mem_blk4 (t : Fin cfg4.N) (i : S256x2.Idx) :
    i ∈ ((cfg4.win 4).blk t).view.set ↔ ∀ a : Fin 2, win4_4.index t a * S256x2.size a ≤ (i a).val ∧ (i a).val < win4_4.index t a * S256x2.size a + S256x2.size a := by
  show i ∈ ((View.whole main_v58).slice (win4_4.rect t)).set ↔ _
  rw [View.set_slice_whole, Rect.mem_set_unit]
  exact Iff.rfl

/-- Every entry of the output array lies in the one point's block, which is the whole array. -/
theorem cover4 (i : S256x2.Idx) :
    ∃ t : Fin cfg4.N, (cfg4.win 4).flush t = true ∧ i ∈ ((cfg4.win 4).blk t).view.set := by
  have hi0 : (i 0).val < 256 := idx2_lt0 i
  have hi1 : (i 1).val < 2 := idx2_lt1 i
  refine ⟨t4_0, flush4_4 _, ?_⟩
  rw [mem_blk4]
  obtain ⟨-, -, -, -, -, -, -, -, e8, e9⟩ := idx_facts4 t4_0
  intro a
  match a with
  | ⟨0, _⟩ =>
    show win4_4.index t4_0 (0 : Fin 2) * 256 ≤ (i 0).val ∧ (i 0).val < win4_4.index t4_0 (0 : Fin 2) * 256 + 256
    rw [e8]; omega
  | ⟨1, _⟩ =>
    show win4_4.index t4_0 (1 : Fin 2) * 2 ≤ (i 1).val ∧ (i 1).val < win4_4.index t4_0 (1 : Fin 2) * 2 + 2
    rw [e9]; omega

/-- The output array after the run is `pooledLinear` of the four input arrays as the region finds them. -/
theorem final4 (c : Dev nD) :
    (dat4 (F := Ideal) V c).arrAt 4 cfg4.N = pooledLinear (V c main_v51) (V c main_v56) (V c main_arg9) (V c main_v57) :=
  (dat4 (F := Ideal) V c).arrAt_eq_of_cover 4 (pooledLinear (V c main_v51) (V c main_v56) (V c main_arg9) (V c main_v57))
    (fun t _ => flushed4_eq V c t) cover4

/-- Region 4 at entry `(g, t)`: the graph's mean feature row times `Wc`, plus the bias. -/
theorem region4_entry (c : Dev nD) (s : S256x64.Idx → EReal) (n : S256x1.Idx → EReal) (w : S64x2.Idx → EReal)
    (b : S1x2.Idx → EReal)
    (hs : V c main_v51 = s) (hn : V c main_v56 = n) (hw : V c main_arg9 = w) (hb : V c main_v57 = b)
    (g : Fin 256) (t : Fin 2) :
    (dat4 (F := Ideal) V c).arrAt 4 cfg4.N (ix2 g t)
      = (∑ k : Fin 64, Ideal.div (s (ix2 g k)) (max (n (ix2 g (0 : Fin 1))) 1) * w (ix2 k t)) + b (ix2 (0 : Fin 1) t) := by
  subst hs hn hw hb
  rw [final4]
  rfl

end Cert.KernelIdeal.RegionValue

end
-- ==== Proof.GcnSpec.lean ====
/-
  A three-layer graph convolution network with mean pooling and a final linear map, entry by entry on the
  extended reals, in the two arrangements the certificate joins.

  Nodes `p : Fin 50000`, edges `e : Fin 800000`, graphs `g : Fin 256`, hidden width 64. The edge list travels as
  one-column index matrices: `src` (source rows, read signed and clamped into the node range), `dst` (target rows:
  an edge lands on node `p` when its target, read signed and not clamped, is exactly `p`), `dstw` (the targets again,
  as the lookup of a per-node vector reads them: clamped). `bat` assigns each node its graph. `d` is the per-node
  scale D^(-1/2).

  One layer, from the product `XW` of the layer's input with its weights:
    * scaled-then-summed:   y = XW · d  per row;  h(p,q) = max ((Σ_{e lands on p} y(src e, q) + y(p,q)) · d(p) + b(q)) 0
    * weighted sum:         h(p,q) = max (Σ_{e lands on p} XW(src e, q) · (d(src e) · d(dstw e)) + XW(p,q) · (d(p)·d(p)) + b(q)) 0
  They agree when every `d(p)` is a nonnegative real and `dstw e = p` for every edge landing on `p`: multiplication
  by a nonnegative finite number distributes over sums of extended reals.
-/
import Idealize.ShloMosaic.PureOps.Ideal.Laws
import Idealize.ShloMosaic.Lib.ValueIdx

noncomputable section

open scoped BigOperators

namespace Cert.Gcn

open Idealize.ShloMosaic Idealize.ShloMosaic.ValueIdx

/-- One index per edge, carried as a one-column matrix. -/
abbrev EdgeCol := IVec ⟨2, ![800000, 1]⟩ 32
/-- One index per node, carried as a one-column matrix. -/
abbrev NodeCol := IVec ⟨2, ![50000, 1]⟩ 32

/-- The node row an edge's index names when a lookup reads it: signed, clamped into `[0, 50000)`. -/
def row (col : EdgeCol) (e : Fin 800000) : Fin 50000 :=
  ⟨min (col (ix2 e (0 : Fin 1))).toInt.toNat (50000 - 1), by omega⟩

/-- The edges whose index, read signed and not clamped, is exactly `p`. -/
def landing (col : EdgeCol) (p : Fin 50000) : Finset (Fin 800000) :=
  Finset.univ.filter fun e : Fin 800000 => (col (ix2 e (0 : Fin 1))).toInt = (p.val : ℤ)

/-- The nodes whose graph number, read signed and not clamped, is exactly `g`. -/
def members (col : NodeCol) (g : Fin 256) : Finset (Fin 50000) :=
  Finset.univ.filter fun p : Fin 50000 => (col (ix2 p (0 : Fin 1))).toInt = (g.val : ℤ)

/-- A matrix product, entry by entry. -/
def mm {K M : ℕ} (X : Fin 50000 → Fin K → EReal) (W : Fin K → Fin M → EReal) (p : Fin 50000) (q : Fin M) : EReal :=
  ∑ k : Fin K, X p k * W k q

section Layer

variable (src dst dstw : EdgeCol) (d : Fin 50000 → EReal)

/-- Rows scaled by the per-node scale. -/
def scaled (XW : Fin 50000 → Fin 64 → EReal) (p : Fin 50000) (q : Fin 64) : EReal := XW p q * d p

/-- The plain neighbourhood sum of already scaled rows, into a zero accumulator. -/
def nbrSum (Y : Fin 50000 → Fin 64 → EReal) (p : Fin 50000) (q : Fin 64) : EReal :=
  0 + ∑ e ∈ landing dst p, Y (row src e) q

/-- A layer's output from the scaled rows `Y`: neighbours and self summed, scaled once more, biased, clipped at 0. -/
def combine (Y : Fin 50000 → Fin 64 → EReal) (b : Fin 64 → EReal) (p : Fin 50000) (q : Fin 64) : EReal :=
  max ((nbrSum src dst Y p q + Y p q) * d p + b q) 0

/-- A layer's output as a weighted neighbourhood sum of the unscaled rows `XW`, each edge weighted by the product
    of its two ends' scales, plus the self term. -/
def weighted (XW : Fin 50000 → Fin 64 → EReal) (b : Fin 64 → EReal) (p : Fin 50000) (q : Fin 64) : EReal :=
  max (((0 + ∑ e ∈ landing dst p, XW (row src e) q * (d (row src e) * d (row dstw e)))
        + XW p q * (d p * d p)) + b q) 0

end Layer

section Pool

variable (bat : NodeCol)

/-- A graph's feature sums, into a zero accumulator. -/
def pooled (h : Fin 50000 → Fin 64 → EReal) (g : Fin 256) (k : Fin 64) : EReal := 0 + ∑ p ∈ members bat g, h p k

/-- A graph's node count, into a zero accumulator. -/
def count (g : Fin 256) : EReal := 0 + ∑ _p ∈ members bat g, (1 : EReal)

/-- Mean pooling followed by the final linear map, the count clipped below at one as `max count 1`. -/
def headL (h : Fin 50000 → Fin 64 → EReal) (Wc : Fin 64 → Fin 2 → EReal) (bc : Fin 2 → EReal) (g : Fin 256) (t : Fin 2) : EReal :=
  (∑ k : Fin 64, Ideal.div (pooled bat h g k) (max (count bat g) 1) * Wc k t) + bc t

/-- The same with the clip written `max 1 count`. -/
def headR (h : Fin 50000 → Fin 64 → EReal) (Wc : Fin 64 → Fin 2 → EReal) (bc : Fin 2 → EReal) (g : Fin 256) (t : Fin 2) : EReal :=
  (∑ k : Fin 64, Ideal.div (pooled bat h g k) (max 1 (count bat g)) * Wc k t) + bc t

end Pool

section Net

variable (src dst dstw : EdgeCol) (bat : NodeCol) (d : Fin 50000 → EReal)
variable (x : Fin 50000 → Fin 2 → EReal) (W1 : Fin 2 → Fin 64 → EReal) (b1 : Fin 64 → EReal)
  (W2 : Fin 64 → Fin 64 → EReal) (b2 : Fin 64 → EReal) (W3 : Fin 64 → Fin 64 → EReal) (b3 : Fin 64 → EReal)
  (Wc : Fin 64 → Fin 2 → EReal) (bc : Fin 2 → EReal)

/-- The network with every layer scaled-then-summed. -/
def kerNet : Fin 256 → Fin 2 → EReal :=
  headL bat
    (combine src dst d (scaled d (mm (combine src dst d (scaled d (mm (combine src dst d (scaled d (mm x W1)) b1) W2)) b2) W3)) b3)
    Wc bc

/-- The network with every layer a weighted sum. -/
def refNet : Fin 256 → Fin 2 → EReal :=
  headR bat
    (weighted src dst dstw d (mm (weighted src dst dstw d (mm (weighted src dst dstw d (mm x W1) b1) W2) b2) W3) b3)
    Wc bc

end Net

/-! ## The law -/

/-- Multiplying by a nonnegative finite number distributes over a finite sum of extended reals. -/
theorem sum_mul_of_nonneg {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- One layer: scaled-then-summed equals the weighted sum, when the scale is nonnegative and finite and the
    clamped target of an edge landing on `p` is `p`. -/
theorem combine_scaled_eq_weighted (src dst dstw : EdgeCol) (d : Fin 50000 → EReal)
    (hd0 : ∀ p, 0 ≤ d p) (hdt : ∀ p, d p ≠ ⊤)
    (hw : ∀ (p : Fin 50000) (e : Fin 800000), e ∈ landing dst p → row dstw e = p)
    (XW : Fin 50000 → Fin 64 → EReal) (b : Fin 64 → EReal) :
    combine src dst d (scaled d XW) b = weighted src dst dstw d XW b := by
  funext p q
  have hs : ∑ e ∈ landing dst p, XW (row src e) q * d (row src e) * d p
      = ∑ e ∈ landing dst p, XW (row src e) q * (d (row src e) * d (row dstw e)) :=
    Finset.sum_congr rfl fun e he => by rw [hw p e he, mul_assoc]
  have key : ((0 + ∑ e ∈ landing dst p, XW (row src e) q * d (row src e)) + XW p q * d p) * d p
      = (0 + ∑ e ∈ landing dst p, XW (row src e) q * (d (row src e) * d (row dstw e))) + XW p q * (d p * d p) := by
    rw [EReal.right_distrib_of_nonneg_of_ne_top (hd0 p) (hdt p), EReal.right_distrib_of_nonneg_of_ne_top (hd0 p) (hdt p),
      zero_mul, sum_mul_of_nonneg _ _ (hd0 p) (hdt p), hs, mul_assoc]
  show max (((0 + ∑ e ∈ landing dst p, XW (row src e) q * d (row src e)) + XW p q * d p) * d p + b q) 0
      = max (((0 + ∑ e ∈ landing dst p, XW (row src e) q * (d (row src e) * d (row dstw e))) + XW p q * (d p * d p)) + b q) 0
  rw [key]

/-- The two networks agree under the same two conditions. -/
theorem kerNet_eq_refNet (src dst dstw : EdgeCol) (bat : NodeCol) (d : Fin 50000 → EReal)
    (hd0 : ∀ p, 0 ≤ d p) (hdt : ∀ p, d p ≠ ⊤)
    (hw : ∀ (p : Fin 50000) (e : Fin 800000), e ∈ landing dst p → row dstw e = p)
    (x : Fin 50000 → Fin 2 → EReal) (W1 : Fin 2 → Fin 64 → EReal) (b1 : Fin 64 → EReal)
    (W2 : Fin 64 → Fin 64 → EReal) (b2 : Fin 64 → EReal) (W3 : Fin 64 → Fin 64 → EReal) (b3 : Fin 64 → EReal)
    (Wc : Fin 64 → Fin 2 → EReal) (bc : Fin 2 → EReal) :
    kerNet src dst bat d x W1 b1 W2 b2 W3 b3 Wc bc = refNet src dst dstw bat d x W1 b1 W2 b2 W3 b3 Wc bc := by
  unfold kerNet refNet
  rw [combine_scaled_eq_weighted src dst dstw d hd0 hdt hw, combine_scaled_eq_weighted src dst dstw d hd0 hdt hw,
    combine_scaled_eq_weighted src dst dstw d hd0 hdt hw]
  funext g t
  unfold headL headR
  rw [max_comm]

end Cert.Gcn

end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.LibEdgeAgg.lean ====
/-
  The weighted neighbourhood sum of a graph layer, read at an index.

  For a matrix `h : [N, D]`, two vectors of `R` row numbers `sw` (sources) and `dv` (targets) and a vector of `R`
  weights `nrm`, the layer takes the rows `h[sw]`, scales row `e` by `nrm(e)`, and adds it into row `dv(e)` of an
  all-zero `[N, D]` accumulator. The vectors travel as one-column matrices `[R, 1]`, the weights stretched to `[R, D]`.
  Entry `(p, k)` of the result is the sum, over the edges `e` whose target `dv(e)`, read as a signed integer, is `p`, of
  `h(sw(e), k) · nrm(e)`, the source row read signed and clamped into `[0, N − 1]`.
-/
import proofs.«104686_j37598143709432_2_alg».proof.Proof.LibEdgeRows
import Idealize.ShloMosaic.Lib.ValueIdx
import Idealize.ShloMosaic.Lib.Pipeline.Value
import Idealize.ShloMosaic.PureOps.Ideal.Laws

noncomputable section

open scoped BigOperators

namespace Cert.Lib

open Idealize.ShloMosaic Idealize.ShloMosaic.ValueIdx

variable {α : Type}

/-- A vector carried as a one-column matrix, read at `(e, u)`: the vector at `e`. -/
theorem col_apply {R : ℕ} (hc : (⟨1, ![R]⟩ : Shape).BroadcastsInDim ⟨2, ![R, 1]⟩ (![0] : Fin 1 → Fin 2))
    (v : (⟨1, ![R]⟩ : Shape).Idx → α) (e : Fin R) (u : Fin 1) :
    broadcastInDim ⟨2, ![R, 1]⟩ ![0] hc v (ix2 e u) = v (ix1 e) := by
  refine broadcastInDim_apply _ hc v (ix2 e u) (ix1 e) ?_
  intro a
  match a with
  | ⟨0, _⟩ =>
    show e.val = if R = 1 then 0 else e.val
    have := e.isLt
    split <;> omega

/-- A one-column matrix stretched along its rows to `D` columns, read at `(e, k)`: the column at `(e, 0)`. -/
theorem stretch_apply {R D : ℕ} (hb : (⟨2, ![R, 1]⟩ : Shape).BroadcastsInDim ⟨2, ![R, D]⟩ (![0, 1] : Fin 2 → Fin 2))
    (y : (⟨2, ![R, 1]⟩ : Shape).Idx → α) (e : Fin R) (k : Fin D) :
    broadcastInDim ⟨2, ![R, D]⟩ ![0, 1] hb y (ix2 e k) = y (ix2 e (0 : Fin 1)) := by
  refine broadcastInDim_apply _ hb y (ix2 e k) (ix2 e (0 : Fin 1)) ?_
  intro a
  match a with
  | ⟨0, _⟩ =>
    show e.val = if R = 1 then 0 else e.val
    have := e.isLt
    split <;> omega
  | ⟨1, _⟩ =>
    show (0 : ℕ) = if (1 : ℕ) = 1 then 0 else k.val
    rfl

/-- The all-zero matrix (the zero word at every entry), read at any index: the extended real `0`. -/
theorem zeros_apply {N D : ℕ} (hz : (⟨0, ![]⟩ : Shape).BroadcastsInDim ⟨2, ![N, D]⟩ (![] : Fin 0 → Fin 2))
    (i : (⟨2, ![N, D]⟩ : Shape).Idx) :
    broadcastInDim ⟨2, ![N, D]⟩ ![] hz (constant (F := Ideal) ⟨0, ![]⟩ .f32 0x00000000#32) i = (0 : EReal) := by
  show Ideal.ofBits .f32 0x00000000#32 = 0
  exact Ideal.ofBits_zero_f32

/-- The weighted neighbourhood sum at `(p, k)`: over the edges `e` whose target `dv(e)` is `p`, the sum of the source
    row's entry `h(sw(e), k)` times the edge's weight `nrm(e)`. -/
theorem agg_rows_apply {N D R : ℕ} (hN : 0 < N)
    (wfG : GatherDims.WF ⟨2, ![N, D]⟩ ⟨2, ![R, 1]⟩ ⟨2, ![R, D]⟩ [1] [0] [] [0] [] 1 ![1, D])
    (wfS : ScatterDims.WF ⟨2, ![N, D]⟩ ⟨2, ![R, 1]⟩ ⟨2, ![R, D]⟩ [1] [0] [0] 1)
    (hz : (⟨0, ![]⟩ : Shape).BroadcastsInDim ⟨2, ![N, D]⟩ (![] : Fin 0 → Fin 2))
    (hc : (⟨1, ![R]⟩ : Shape).BroadcastsInDim ⟨2, ![R, 1]⟩ (![0] : Fin 1 → Fin 2))
    (hb : (⟨2, ![R, 1]⟩ : Shape).BroadcastsInDim ⟨2, ![R, D]⟩ (![0, 1] : Fin 2 → Fin 2))
    (h : (⟨2, ![N, D]⟩ : Shape).Idx → EReal) (sw dv : IVec ⟨1, ![R]⟩ 32)
    (nrm : (⟨1, ![R]⟩ : Shape).Idx → EReal) (p : Fin N) (k : Fin D) :
    Host.scatterAdd (F := Ideal) (φ := .f32) (rowsScatter N D R wfS)
        (broadcastInDim ⟨2, ![N, D]⟩ ![] hz (constant (F := Ideal) ⟨0, ![]⟩ .f32 0x00000000#32))
        (broadcastInDim ⟨2, ![R, 1]⟩ ![0] hc dv)
        (mulf (Host.gather (rowsTake N D R wfG) h (broadcastInDim ⟨2, ![R, 1]⟩ ![0] hc sw))
              (broadcastInDim ⟨2, ![R, D]⟩ ![0, 1] hb (broadcastInDim ⟨2, ![R, 1]⟩ ![0] hc nrm))) (ix2 p k)
      = ∑ e ∈ Finset.univ.filter (fun e : Fin R => (dv (ix1 e)).toInt = (p.val : ℤ)),
          h (ix2 (⟨min (sw (ix1 e)).toInt.toNat (N - 1), by omega⟩ : Fin N) k) * nrm (ix1 e) := by
  rw [scatterAdd_rowsScatter_apply, zeros_apply, zero_add]
  have hf : (Finset.univ.filter fun e : Fin R =>
        (broadcastInDim ⟨2, ![R, 1]⟩ ![0] hc dv (ix2 e (0 : Fin 1))).toInt = (p.val : ℤ))
      = Finset.univ.filter fun e : Fin R => (dv (ix1 e)).toInt = (p.val : ℤ) :=
    Finset.filter_congr fun e _ => by rw [col_apply]
  rw [hf]
  refine Finset.sum_congr rfl fun e _ => ?_
  have hrow : (⟨min (broadcastInDim ⟨2, ![R, 1]⟩ ![0] hc sw (ix2 e (0 : Fin 1))).toInt.toNat (N - 1), by omega⟩ : Fin N)
      = ⟨min (sw (ix1 e)).toInt.toNat (N - 1), by omega⟩ :=
    Fin.ext (congrArg (fun z : BitVec 32 => min z.toInt.toNat (N - 1)) (col_apply hc sw e 0))
  rw [mulf_apply, gather_rowsTake_apply hN, stretch_apply, hrow, col_apply hc nrm]

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibScatterVec.lean ====
/-
  Entries accumulated into a vector along its one axis, read at an index.

  A segment sum of scalars adds `R` update values `upd : [R]` into the entries of an accumulator `acc : [N]`, the
  entry each value goes to named by a column of `R` entry numbers `idx : [R, 1]` (a weighted in-degree: the
  weights of the edges, accumulated at the node each edge arrives at).

  The accumulation's entry `p` is the operand's entry plus the sum, over the update positions `e` whose entry
  number `idx(e, 0)`, read as a signed integer and NOT clamped, is exactly `p`, of the update's value at `e`; an
  update whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-- The dimension numbers of the scalar accumulation `acc[idx] += upd` for `acc : [N]`, `idx : [R, 1]`,
    `upd : [R]`: the updates have no window axis, the operand's one axis is inserted and is the one the entry
    number names. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- On the operand's axis the window of update position `j` starts at the entry number `idx(j₀, 0)`, read signed. -/
theorem start_vecScatter_zero {N R w : Nat}
    (wf : ScatterDims.WF ⟨1, ![N]⟩ ⟨2, ![R, 1]⟩ ⟨1, ![R]⟩ [] [0] [0] 1)
    (j : (⟨1, ![R]⟩ : Shape).Idx) (idx : IVec ⟨2, ![R, 1]⟩ w) :
    (vecScatter N R wf).start j idx 0 = (idx (ix2 (j 0) (0 : Fin 1))).toInt := by
  unfold ScatterDims.start
  rw [dif_pos (show (0 : Fin 1) ∈ (vecScatter N R wf).scatterDimsToOperandDims from List.mem_singleton.mpr rfl)]
  have hsi : (vecScatter N R wf).siIdx j ⟨List.idxOf (0 : Fin 1) (vecScatter N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's axis is an inserted one: the window coordinate on it is `0`. -/
theorem window_vecScatter_zero {N R : Nat}
    (wf : ScatterDims.WF ⟨1, ![N]⟩ ⟨2, ![R, 1]⟩ ⟨1, ![R]⟩ [] [0] [0] 1)
    (j : (⟨1, ![R]⟩ : Shape).Idx) :
    (vecScatter N R wf).window j 0 = 0 := by
  unfold ScatterDims.window
  rw [dif_neg (show (0 : Fin 1) ∉ (vecScatter N R wf).sKept from
    (by decide : (0 : Fin 1) ∉ (List.finRange 1).filter (· ∉ ([0] : List (Fin 1)))))]

/-- Update position `j` lands on the operand's entry `p` exactly when its entry number `idx(j₀, 0)`, read signed,
    is `p`; an entry number outside `[0, N)` lands on no entry. -/
theorem resultIdx_vecScatter {N R w : Nat}
    (wf : ScatterDims.WF ⟨1, ![N]⟩ ⟨2, ![R, 1]⟩ ⟨1, ![R]⟩ [] [0] [0] 1)
    (j : (⟨1, ![R]⟩ : Shape).Idx) (idx : IVec ⟨2, ![R, 1]⟩ w) (p : Fin N) :
    (vecScatter N R wf).resultIdx? j idx = some (ix1 p)
      ↔ (idx (ix2 (j 0) (0 : Fin 1))).toInt = (p.val : ℤ) := by
  have hs0 := start_vecScatter_zero wf j idx
  have hw0 := window_vecScatter_zero wf j
  have hpN : p.val < N := p.isLt
  unfold ScatterDims.resultIdx?
  split
  · rename_i h
    rw [Option.some.injEq]
    constructor
    · intro hf
      have h0 : ((vecScatter N R wf).start j idx 0 + ((vecScatter N R wf).window j 0 : ℤ)).toNat = p.val :=
        congrArg Fin.val (congrFun hf 0)
      have hh0 := (h 0).1
      rw [hs0, hw0] at h0 hh0
      omega
    · intro hp
      funext a
      refine Fin.ext ?_
      match a with
      | ⟨0, _⟩ =>
        show ((vecScatter N R wf).start j idx 0 + ((vecScatter N R wf).window j 0 : ℤ)).toNat = p.val
        rw [hs0, hw0, hp]; omega
  · rename_i h
    constructor
    · intro hf; cases hf
    · intro hp
      exfalso; apply h
      intro a
      match a with
      | ⟨0, _⟩ =>
        show 0 ≤ (vecScatter N R wf).start j idx 0 + ((vecScatter N R wf).window j 0 : ℤ)
          ∧ (vecScatter N R wf).start j idx 0 + ((vecScatter N R wf).window j 0 : ℤ) < (N : ℤ)
        rw [hs0, hw0, hp]; omega

/-- The scalar accumulation at `p`: the operand's entry plus the sum of the updates' values over the update
    positions `e` whose entry number `idx(e, 0)`, read signed and not clamped, is `p`. -/
theorem scatterAdd_vecScatter_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (p : Fin N) :
    Host.scatterAdd (F := Ideal) (φ := .f32) (vecScatter N R wf) x idx upd (ix1 p)
      = x (ix1 p)
        + ∑ e ∈ Finset.univ.filter (fun e : Fin R => (idx (ix2 e (0 : Fin 1))).toInt = (p.val : ℤ)),
            upd (ix1 e) := by
  show x (ix1 p) + ∑ j ∈ Finset.univ.filter
      (fun j => (vecScatter N R wf).resultIdx? j idx = some (ix1 p)), upd j = _
  congr 1
  symm
  refine Finset.sum_bij (fun e _ => ix1 e) ?_ ?_ ?_ ?_
  · intro e he
    rw [Finset.mem_filter] at he ⊢
    exact ⟨Finset.mem_univ _, (resultIdx_vecScatter wf (ix1 e) idx p).mpr he.2⟩
  · intro e₁ _ e₂ _ h
    exact congrFun h 0
  · intro j hj
    rw [Finset.mem_filter] at hj
    have hj' := (resultIdx_vecScatter wf j idx p).mp hj.2
    exact ⟨j 0, Finset.mem_filter.mpr ⟨Finset.mem_univ _, hj'⟩, (eq_ix1 j).symm⟩
  · intro e _
    rfl

end Cert.Lib

end
-- ==== Proof.KernelEntry.lean ====
/-
  The idealized kernel's result, entry by entry, as the scaled-then-summed network of the argument arrays.

  Each launch's output array is read at an entry from the launch's operands (the per-launch closed forms), each
  operand is what the host side left there (the boundary contents), and each host array is read at an entry: the
  scale column at (p, 0) is the scale vector at p; the neighbourhood sum at (p, q) is zero plus the sum over the edges
  landing on p of the looked-up row's entry; a bias row at (0, k) is the bias at k; the per-graph sums and counts are
  zero plus the sums over the graph's nodes. Chained through the five launches this is the network
  `Cert.Gcn.kerNet`.
-/
import proofs.«104686_j37598143709432_2_alg».proof.Proof.KernelHost
import proofs.«104686_j37598143709432_2_alg».proof.Proof.Region0
import proofs.«104686_j37598143709432_2_alg».proof.Proof.Region1
import proofs.«104686_j37598143709432_2_alg».proof.Proof.Region2
import proofs.«104686_j37598143709432_2_alg».proof.Proof.Region3
import proofs.«104686_j37598143709432_2_alg».proof.Proof.Region4
import proofs.«104686_j37598143709432_2_alg».proof.Proof.GcnSpec
import proofs.«104686_j37598143709432_2_alg».proof.Proof.LibEdgeRows
import proofs.«104686_j37598143709432_2_alg».proof.Proof.LibEdgeAgg
import proofs.«104686_j37598143709432_2_alg».proof.Proof.LibColumn
import proofs.«104686_j37598143709432_2_alg».proof.Proof.LibAsRow
import proofs.«104686_j37598143709432_2_alg».proof.Proof.LibScatterVec
import proofs.«104686_j37598143709432_2_alg».proof.Proof.LibNodeMean

set_option maxRecDepth 16384

noncomputable section

open scoped BigOperators

namespace Cert.KernelIdeal.HostValue

open Cert.KernelIdeal Cert.KernelIdeal.Gen Cert.KernelIdeal.RegionValue Idealize.ShloMosaic Idealize.ShloMosaic.TcCoe
  Idealize.ShloMosaic.ValueIdx Idealize.SL.Sem Idealize.ShloMosaic.StableHlo

/-! ## The host arrays at an entry -/

/-- The scale column at `(p, 0)` is the scale vector at `p`. -/
theorem scaleCol_apply (x1 : IVec S2x800000 32) (p : Fin 50000) :
    scaleCol x1 (ix2 p (0 : Fin 1)) = scaleVec x1 (ix1 p) :=
  Cert.Lib.shapeCast_a_a1_apply (scaleVec x1) shapeCasts_S50000_S50000x1 p 0

/-- A bias row at `(0, k)` is the bias at `k`. -/
theorem biasRow_apply (b : S64.Idx → EReal) (k : Fin 64) : biasRow b (ix2 (0 : Fin 1) k) = b (ix1 k) := by
  unfold biasRow
  rw [Cert.Lib.shapeCast_eq_asRow]
  rfl

/-- The final bias row at `(0, t)` is the bias at `t`. -/
theorem outBiasRow_apply (bc : S2.Idx → EReal) (t : Fin 2) : outBiasRow bc (ix2 (0 : Fin 1) t) = bc (ix1 t) := by
  unfold outBiasRow
  rw [Cert.Lib.shapeCast_eq_asRow]
  rfl

/-- The neighbourhood sum at `(p, q)`: zero plus, over the edges landing on `p`, the entry `q` of the row of `y`
    the edge's wrapped source names. -/
theorem aggOf_apply (x1 : IVec S2x800000 32) (y : S50000x64.Idx → EReal) (p : Fin 50000) (q : Fin 64) :
    aggOf x1 y (ix2 p q) = Cert.Gcn.nbrSum (srcCol x1) (dstCol x1) (fun p q => y (ix2 p q)) p q := by
  unfold aggOf
  refine (Cert.Lib.scatterAdd_rowsScatter_apply (N := 50000) (D := 64) (R := 800000)
    scatter_S50000x64_S800000x1_S800000x64_1_0_0_1.wf _ (dstCol x1) _ p q).trans ?_
  rw [Cert.Lib.zeros_apply]
  unfold Cert.Gcn.nbrSum Cert.Gcn.landing Cert.Gcn.row
  refine congrArg (fun s : EReal => 0 + s) (Finset.sum_congr rfl fun e _ => ?_)
  exact Cert.Lib.gather_rowsTake_apply (N := 50000) (D := 64) (R := 800000) (by omega)
    gather_S50000x64_S800000x1_S800000x64_1_0_n_n_0_1_164.wf y (srcCol x1) e q

/-- The per-graph sums at `(g, k)`: zero plus the sum over the graph's nodes. -/
theorem poolOf_apply (x2 : IVec S50000 32) (h : S50000x64.Idx → EReal) (g : Fin 256) (k : Fin 64) :
    poolOf x2 h (ix2 g k) = Cert.Gcn.pooled (batCol x2) (fun p k => h (ix2 p k)) g k := by
  unfold poolOf
  refine (Cert.Lib.scatterAdd_rowsScatter_apply (N := 256) (D := 64) (R := 50000)
    scatter_S256x64_S50000x1_S50000x64_1_0_0_1.wf _ (batCol x2) _ g k).trans ?_
  rw [Cert.Lib.zeros_apply]
  rfl

/-- The per-graph counts at `(g, 0)`: zero plus one for each of the graph's nodes. -/
theorem countCol_apply (x2 : IVec S50000 32) (g : Fin 256) :
    countCol x2 (ix2 g (0 : Fin 1)) = Cert.Gcn.count (batCol x2) g := by
  unfold countCol
  rw [Cert.Lib.shapeCast_a_a1_apply]
  refine (Cert.Lib.scatterAdd_vecScatter_apply (N := 256) (R := 50000)
    scatter_S256_S50000x1_S50000_n_0_0_1.wf _ (batCol x2) _ g).trans ?_
  unfold Cert.Gcn.count Cert.Gcn.members
  rw [Cert.Lib.scalarBroadcast_apply]
  refine congrArg₂ (· + ·) ?_ (Finset.sum_congr rfl fun p _ => ?_)
  · exact Ideal.ofBits_zero_f32
  · rw [Cert.Lib.scalarBroadcast_apply]
    exact Cert.Lib.one_word_f32

/-! ## The launches' outputs at an entry, chained -/

section Chain

variable (m : (ℓ : Loc nD τ sig) → Buf (Elt Ideal) ℓ) (ρ : Dev nD → PrngReg) (c : Dev nD)

/-- The per-node scale of this launch memory. -/
def dK : Fin 50000 → EReal := fun p => scaleVec (m ((c : Thread nD τ).loc main_arg1)) (ix1 p)
/-- The node features of this launch memory. -/
def xK : Fin 50000 → Fin 2 → EReal := fun p k => (m ((c : Thread nD τ).loc main_arg0)) (ix2 p k)
def w1K : Fin 2 → Fin 64 → EReal := fun k q => (m ((c : Thread nD τ).loc main_arg3)) (ix2 k q)
def b1K : Fin 64 → EReal := fun q => (m ((c : Thread nD τ).loc main_arg4)) (ix1 q)
def w2K : Fin 64 → Fin 64 → EReal := fun k q => (m ((c : Thread nD τ).loc main_arg5)) (ix2 k q)
def b2K : Fin 64 → EReal := fun q => (m ((c : Thread nD τ).loc main_arg6)) (ix1 q)
def w3K : Fin 64 → Fin 64 → EReal := fun k q => (m ((c : Thread nD τ).loc main_arg7)) (ix2 k q)
def b3K : Fin 64 → EReal := fun q => (m ((c : Thread nD τ).loc main_arg8)) (ix1 q)
def wcK : Fin 64 → Fin 2 → EReal := fun k t => (m ((c : Thread nD τ).loc main_arg9)) (ix2 k t)
def bcK : Fin 2 → EReal := fun t => (m ((c : Thread nD τ).loc main_arg10)) (ix1 t)

/-- The first launch: the product of the features with the first weights, each row scaled. -/
theorem y1_fun : (fun p q => y1 m ρ c (ix2 p q))
    = Cert.Gcn.scaled (dK m c) (Cert.Gcn.mm (xK m c) (w1K m c)) := by
  funext p q
  refine (region0_entry (V1 m ρ) c _ _ _ (W1_arg0 m ρ c) (W1_arg3 m ρ c) (W1_v11 m ρ c) p q).trans ?_
  rw [scaleCol_apply]
  rfl

/-- The second launch: the first layer combined, times the second weights, each row scaled. -/
theorem y2_fun : (fun p q => y2 m ρ c (ix2 p q))
    = Cert.Gcn.scaled (dK m c) (Cert.Gcn.mm (Cert.Gcn.combine (srcCol (m ((c : Thread nD τ).loc main_arg1))) (dstCol (m ((c : Thread nD τ).loc main_arg1))) (dK m c)
        (Cert.Gcn.scaled (dK m c) (Cert.Gcn.mm (xK m c) (w1K m c))) (b1K m c)) (w2K m c)) := by
  rw [← y1_fun m ρ c]
  funext p q
  refine (region1_entry (V3 m ρ) c _ _ _ _ _ (W3_v22 m ρ c) (W3_v12 m ρ c) (W3_v11 m ρ c) (W3_v23 m ρ c)
    (W3_arg5 m ρ c) p q).trans ?_
  simp only [aggOf_apply, scaleCol_apply, biasRow_apply]
  rfl

/-- The third launch: the second layer combined, times the third weights, each row scaled. -/
theorem y3_fun : (fun p q => y3 m ρ c (ix2 p q))
    = Cert.Gcn.scaled (dK m c) (Cert.Gcn.mm (Cert.Gcn.combine (srcCol (m ((c : Thread nD τ).loc main_arg1))) (dstCol (m ((c : Thread nD τ).loc main_arg1))) (dK m c)
        (Cert.Gcn.scaled (dK m c) (Cert.Gcn.mm (Cert.Gcn.combine (srcCol (m ((c : Thread nD τ).loc main_arg1))) (dstCol (m ((c : Thread nD τ).loc main_arg1))) (dK m c)
          (Cert.Gcn.scaled (dK m c) (Cert.Gcn.mm (xK m c) (w1K m c))) (b1K m c)) (w2K m c))) (b2K m c)) (w3K m c)) := by
  rw [← y2_fun m ρ c]
  funext p q
  refine (region2_entry (V5 m ρ) c _ _ _ _ _ (W5_v34 m ρ c) (W5_v24 m ρ c) (W5_v11 m ρ c) (W5_v35 m ρ c)
    (W5_arg7 m ρ c) p q).trans ?_
  simp only [aggOf_apply, scaleCol_apply, biasRow_apply]
  rfl

/-- The fourth launch: the third layer combined. -/
theorem h3_fun : (fun p q => h3 m ρ c (ix2 p q))
    = Cert.Gcn.combine (srcCol (m ((c : Thread nD τ).loc main_arg1))) (dstCol (m ((c : Thread nD τ).loc main_arg1))) (dK m c)
        (Cert.Gcn.scaled (dK m c) (Cert.Gcn.mm (Cert.Gcn.combine (srcCol (m ((c : Thread nD τ).loc main_arg1))) (dstCol (m ((c : Thread nD τ).loc main_arg1))) (dK m c)
          (Cert.Gcn.scaled (dK m c) (Cert.Gcn.mm (Cert.Gcn.combine (srcCol (m ((c : Thread nD τ).loc main_arg1))) (dstCol (m ((c : Thread nD τ).loc main_arg1))) (dK m c)
            (Cert.Gcn.scaled (dK m c) (Cert.Gcn.mm (xK m c) (w1K m c))) (b1K m c)) (w2K m c))) (b2K m c)) (w3K m c)))
        (b3K m c) := by
  rw [← y3_fun m ρ c]
  funext p q
  refine (region3_entry (V7 m ρ) c _ _ _ _ (W7_v46 m ρ c) (W7_v36 m ρ c) (W7_v11 m ρ c) (W7_v47 m ρ c) p q).trans ?_
  simp only [aggOf_apply, scaleCol_apply, biasRow_apply]
  rfl

/-- The program's result at `(g, t)`: the scaled-then-summed network of the argument arrays. -/
theorem kernel_entry (g : Fin 256) (t : Fin 2) :
    W10 m ρ c (Proc.devRef .tc main_v58) (ix2 g t)
      = Cert.Gcn.kerNet (srcCol (m ((c : Thread nD τ).loc main_arg1))) (dstCol (m ((c : Thread nD τ).loc main_arg1))) (batCol (m ((c : Thread nD τ).loc main_arg2))) (dK m c) (xK m c) (w1K m c) (b1K m c) (w2K m c) (b2K m c)
          (w3K m c) (b3K m c) (wcK m c) (bcK m c) g t := by
  unfold Cert.Gcn.kerNet
  rw [← h3_fun m ρ c, W10_v58 m ρ c]
  refine (region4_entry (V9 m ρ) c _ _ _ _ (W9_v51 m ρ c) (W9_v56 m ρ c) (W9_arg9 m ρ c) (W9_v57 m ρ c) g t).trans ?_
  simp only [poolOf_apply, countCol_apply, outBiasRow_apply]
  rfl

end Chain

end Cert.KernelIdeal.HostValue

end
-- ==== Proof.LibGatherRows.lean ====
/-
  A lookup of rows along axis 0, read at an index.

  What `v[idx]` lowers to when `idx` is a vector of `R` start indices carried as an `[R, 1]` array (the index vector
  on axis 1): for a flat operand `[N]` the result is `[R]`, its entry `r` the operand at start index `idx(r, 0)`; for
  a one-column operand `[N, 1]` (the column an offset axis of size one) the result is `[R, 1]`, its entry `(r, 0)` the
  operand at `(idx(r, 0), 0)`. In both the start index is read as a signed integer and clamped into `[0, N − 1]`.
-/
import Idealize.ShloMosaic.Lib.ValueIdx

noncomputable section

namespace Cert.Lib

open Idealize.ShloMosaic Idealize.ShloMosaic.ValueIdx

variable {α : Type}

/-- The dimension numbers of `v[idx]` for `v : [N]`, `idx : [R, 1]`, result `[R]`. -/
abbrev flatTake (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The flat lookup at `r`: the operand at start index `idx(r, 0)`, signed and clamped. -/
theorem gather_flatTake_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatTake N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (flatTake N R wf).start (ix1 r) idx 0 + (flatTake N R wf).batchCoord (ix1 r) 0
    + (flatTake N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTake N R wf).startIndexMap from List.mem_singleton.mpr rfl)]
  have hsi : (flatTake N R wf).siIdx (ix1 r) ⟨List.idxOf (0 : Fin 1) (flatTake N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of `v[idx]` for a one-column `v : [N, 1]`, `idx : [R, 1]`, result `[R, 1]`. -/
abbrev colTake (N R : Nat) (wf : GatherDims.WF ⟨2, ![N, 1]⟩ ⟨2, ![R, 1]⟩ ⟨2, ![R, 1]⟩ [1] [0] [] [0] [] 1 ![1, 1]) :
    GatherDims ⟨2, ![N, 1]⟩ ⟨2, ![R, 1]⟩ ⟨2, ![R, 1]⟩ where
  offsetDims := [1]
  collapsedSliceDims := [0]
  operandBatchingDims := []
  startIndicesBatchingDims := []
  startIndexMap := [0]
  indexVectorDim := 1
  sliceSizes := ![1, 1]
  wf := wf

/-- The one-column lookup at `(r, u)`: the operand at `(idx(r, 0), 0)`, the start index signed and clamped. -/
theorem gather_colTake_apply {N R w : Nat} (hN : 0 < N)
    (wf : GatherDims.WF ⟨2, ![N, 1]⟩ ⟨2, ![R, 1]⟩ ⟨2, ![R, 1]⟩ [1] [0] [] [0] [] 1 ![1, 1])
    (x : (⟨2, ![N, 1]⟩ : Shape).Idx → α) (idx : IVec ⟨2, ![R, 1]⟩ w) (r : Fin R) (u : Fin 1) :
    Host.gather (colTake N R wf) x idx (ix2 r u)
      = x (ix2 (⟨min (idx (ix2 r (0 : Fin 1))).toInt.toNat (N - 1), by omega⟩ : Fin N) (0 : Fin 1)) := by
  unfold Host.gather
  congr 1
  funext a
  refine Fin.ext ?_
  match a with
  | ⟨0, _⟩ =>
    show (colTake N R wf).start (ix2 r u) idx 0 + (colTake N R wf).batchCoord (ix2 r u) 0
      + (colTake N R wf).offCoord (ix2 r u) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colTake N R wf).startIndexMap from List.mem_singleton.mpr rfl)]
    have hsi : (colTake N R wf).siIdx (ix2 r u) ⟨List.idxOf (0 : Fin 2) (colTake N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have h : (colTake N R wf).start (ix2 r u) idx 1 + (colTake N R wf).batchCoord (ix2 r u) 1
        + (colTake N R wf).offCoord (ix2 r u) 1 < 1 := (colTake N R wf).lt (ix2 r u) idx 1
    show (colTake N R wf).start (ix2 r u) idx 1 + (colTake N R wf).batchCoord (ix2 r u) 1
      + (colTake N R wf).offCoord (ix2 r u) 1 = 0
    omega

end Cert.Lib

end
-- ==== Proof.RefEntry.lean ====
/-
  The reference network, entry by entry.

  The reference computes three graph-convolution layers and a mean-pooling head as operations on whole arrays: a
  matrix product; a lookup of the product's rows at the edges' sources, each row scaled by the edge's weight (the
  product of the two ends' scales, themselves looked up per edge) and added into the row of the edge's target in an
  all-zero accumulator; a self term (the product's row times the node's scale squared); a bias repeated over the
  nodes; a clip at zero. The three layers are the same array operation at different operands, so it is read once, for
  an arbitrary product `h` and bias `b`: at `(p, q)` it is the weighted neighbourhood sum of the specification.
  The head adds layer 3's rows into the row of each node's graph, counts the nodes of each graph the same way, clips
  the counts below at one, divides, multiplies by the last weights and adds the last bias: at `(g, t)` that is the
  specification's head with the clip written `max 1 count`.
-/
import proofs.«104686_j37598143709432_2_alg».proof.Proof.Gen.ReferenceIdeal.Read
import proofs.«104686_j37598143709432_2_alg».proof.Proof.GcnSpec
import proofs.«104686_j37598143709432_2_alg».proof.Proof.LibEdgeAgg
import proofs.«104686_j37598143709432_2_alg».proof.Proof.LibGatherRows
import proofs.«104686_j37598143709432_2_alg».proof.Proof.LibScatterVec
import proofs.«104686_j37598143709432_2_alg».proof.Proof.LibNodeMean
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-- The all-zero accumulator of a layer reads the extended real 0. -/
theorem zeros_entry (i : S50000x64.Idx) : val_main_v37 (F := Ideal) i = (0 : EReal) := by
  rw [val_main_v37_apply, val_main_cst_7_apply]
  exact Ideal.ofBits_zero_f32

/-- The clip level of a layer reads the extended real 0. -/
theorem clip_entry (i : S50000x64.Idx) : val_main_call0_v0 (F := Ideal) i = (0 : EReal) := by
  rw [val_main_call0_v0_apply, val_main_call0_cst_apply]
  exact Ideal.ofBits_zero_f32

/-- The per-edge weight, stretched along the feature axis, at (e, q): the product of the scales of the edge's two
    ends, each end's row number read signed and clamped. -/
theorem norm_entry (x1 : IVec S2x800000 32) (e : Fin 800000) (q : Fin 64) :
    val_main_v35 (F := Ideal) x1 (ix2 e q)
      = val_main_v10 (F := Ideal) x1 (ix1 (Cert.Gcn.row (val_main_v17 (F := Ideal) x1) e))
        * val_main_v10 (F := Ideal) x1 (ix1 (Cert.Gcn.row (val_main_v24 (F := Ideal) x1) e)) := by
  have hi : idx_main_v27 (idx_main_v35 (ix2 e q)) = ix1 e := by
    funext a; match a with | ⟨0, _⟩ => rfl
  rw [val_main_v35_apply, val_main_v27_apply, hi, val_main_v26_apply]
  unfold val_main_v18 val_main_v25
  rw [show gather_S50000_S800000x1_S800000_n_0_n_n_0_1_1
      = Cert.Lib.flatTake 50000 800000 gather_S50000_S800000x1_S800000_n_0_n_n_0_1_1_wf from rfl,
    Cert.Lib.gather_flatTake_apply (by decide), Cert.Lib.gather_flatTake_apply (by decide)]
  rfl

/-- The self term's weight, stretched along the feature axis, at (p, q): the node's scale squared. -/
theorem self_entry (x1 : IVec S2x800000 32) (p : Fin 50000) (q : Fin 64) :
    val_main_v42 (F := Ideal) x1 (ix2 p q)
      = val_main_v10 (F := Ideal) x1 (ix1 p) * val_main_v10 (F := Ideal) x1 (ix1 p) := by
  have hi : idx_main_v41 (idx_main_v42 (ix2 p q)) = ix1 p := by
    funext a; match a with | ⟨0, _⟩ => rfl
  rw [val_main_v42_apply, val_main_v41_apply, hi, val_main_v40_apply]
  rfl

/-- A bias vector as a row, repeated over the nodes, at (p, q): the vector at q. -/
theorem bias_entry (b : S64.Idx → EReal) (p : Fin 50000) (q : Fin 64) :
    val_main_v46 (F := Ideal) b (ix2 p q) = b (ix1 q) := by
  have hi : idx_main_v45 (idx_main_v46 (ix2 p q)) = ix1 q := by
    funext a; match a with | ⟨0, _⟩ => rfl
  rw [val_main_v46_apply, val_main_v45_apply, hi]

/-- One layer of the reference as an operation on whole arrays: from the product `h` of the layer's input with its
    weights, the edge list and a bias vector. -/
def refLayer (h : S50000x64.Idx → EReal) (x1 : IVec S2x800000 32) (b : S64.Idx → EReal) : S50000x64.Idx → EReal :=
  maximumf (F := Ideal) (φ := .f32)
    (addf (addf
      (Host.scatterAdd scatter_S50000x64_S800000x1_S800000x64_1_0_0_1 (val_main_v37 (F := Ideal)) (val_main_v38 (F := Ideal) x1)
        (mulf (Host.gather gather_S50000x64_S800000x1_S800000x64_1_0_n_n_0_1_164 h (val_main_v17 (F := Ideal) x1))
          (val_main_v35 (F := Ideal) x1)))
      (mulf h (val_main_v42 (F := Ideal) x1)))
      (val_main_v46 (F := Ideal) b))
    (val_main_call0_v0 (F := Ideal))

/-- One layer of the reference at (p, q) is the weighted neighbourhood sum of the specification. -/
theorem refLayer_entry (h : S50000x64.Idx → EReal) (x1 : IVec S2x800000 32) (b : S64.Idx → EReal)
    (p : Fin 50000) (q : Fin 64) :
    refLayer h x1 b (ix2 p q)
      = Cert.Gcn.weighted (val_main_v17 (F := Ideal) x1) (val_main_v38 (F := Ideal) x1) (val_main_v24 (F := Ideal) x1)
          (fun p => val_main_v10 (F := Ideal) x1 (ix1 p)) (fun p k => h (ix2 p k)) (fun q => b (ix1 q)) p q := by
  unfold refLayer Cert.Gcn.weighted Cert.Gcn.landing
  rw [maximumf_apply, addf_apply, addf_apply, mulf_apply, clip_entry, bias_entry, self_entry,
    show scatter_S50000x64_S800000x1_S800000x64_1_0_0_1
      = Cert.Lib.rowsScatter 50000 64 800000 scatter_S50000x64_S800000x1_S800000x64_1_0_0_1_wf from rfl,
    Cert.Lib.scatterAdd_rowsScatter_apply, zeros_entry]
  have hs : ∀ e : Fin 800000,
      mulf (F := Ideal) (φ := .f32) (Host.gather gather_S50000x64_S800000x1_S800000x64_1_0_n_n_0_1_164 h (val_main_v17 (F := Ideal) x1))
          (val_main_v35 (F := Ideal) x1) (ix2 e q)
        = h (ix2 (Cert.Gcn.row (val_main_v17 (F := Ideal) x1) e) q)
          * (val_main_v10 (F := Ideal) x1 (ix1 (Cert.Gcn.row (val_main_v17 (F := Ideal) x1) e))
            * val_main_v10 (F := Ideal) x1 (ix1 (Cert.Gcn.row (val_main_v24 (F := Ideal) x1) e))) := by
    intro e
    rw [mulf_apply, norm_entry,
      show gather_S50000x64_S800000x1_S800000x64_1_0_n_n_0_1_164
        = Cert.Lib.rowsTake 50000 64 800000 gather_S50000x64_S800000x1_S800000x64_1_0_n_n_0_1_164_wf from rfl,
      Cert.Lib.gather_rowsTake_apply (by decide)]
    rfl
  rw [Finset.sum_congr rfl fun e _ => hs e]

/-- Layer 1 of the reference is the layer operation at the first product. -/
theorem layer1_eq (x0 : S50000x2.Idx → EReal) (x1 : IVec S2x800000 32) (x3 : S2x64.Idx → EReal) (x4 : S64.Idx → EReal) :
    val_main_v48 (F := Ideal) x0 x1 x3 x4 = refLayer (val_main_v11 (F := Ideal) x0 x3) x1 x4 := rfl

/-- Layer 2 of the reference is the layer operation at the second product. -/
theorem layer2_eq (x0 : S50000x2.Idx → EReal) (x1 : IVec S2x800000 32) (x3 : S2x64.Idx → EReal) (x4 : S64.Idx → EReal)
    (x5 : S64x64.Idx → EReal) (x6 : S64.Idx → EReal) :
    val_main_v86 (F := Ideal) x0 x1 x3 x4 x5 x6 = refLayer (val_main_v49 (F := Ideal) x0 x1 x3 x4 x5) x1 x6 := rfl

/-- Layer 3 of the reference is the layer operation at the third product. -/
theorem layer3_eq (x0 : S50000x2.Idx → EReal) (x1 : IVec S2x800000 32) (x3 : S2x64.Idx → EReal) (x4 : S64.Idx → EReal)
    (x5 : S64x64.Idx → EReal) (x6 : S64.Idx → EReal) (x7 : S64x64.Idx → EReal) (x8 : S64.Idx → EReal) :
    val_main_v124 (F := Ideal) x0 x1 x3 x4 x5 x6 x7 x8
      = refLayer (val_main_v87 (F := Ideal) x0 x1 x3 x4 x5 x6 x7) x1 x8 := rfl

/-- The first product at (p, q): the input's row p against the first weights' column q. -/
theorem prod1_entry (x0 : S50000x2.Idx → EReal) (x3 : S2x64.Idx → EReal) (p : Fin 50000) (q : Fin 64) :
    val_main_v11 (F := Ideal) x0 x3 (ix2 p q)
      = Cert.Gcn.mm (fun p k => x0 (ix2 p k)) (fun k q => x3 (ix2 k q)) p q := by
  rw [val_main_v11_apply]
  unfold Cert.Gcn.mm
  refine Finset.sum_congr rfl fun k _ => ?_
  have hl : lidx_main_v11 (ix2 p q) k = ix2 p k := by
    funext a; match a with | ⟨0, _⟩ => rfl | ⟨1, _⟩ => rfl
  have hr : ridx_main_v11 (ix2 p q) k = ix2 k q := by
    funext a; match a with | ⟨0, _⟩ => rfl | ⟨1, _⟩ => rfl
  rw [hl, hr]

/-- The second product at (p, q): layer 1's row p against the second weights' column q. -/
theorem prod2_entry (x0 : S50000x2.Idx → EReal) (x1 : IVec S2x800000 32) (x3 : S2x64.Idx → EReal) (x4 : S64.Idx → EReal)
    (x5 : S64x64.Idx → EReal) (p : Fin 50000) (q : Fin 64) :
    val_main_v49 (F := Ideal) x0 x1 x3 x4 x5 (ix2 p q)
      = Cert.Gcn.mm (fun p k => val_main_v48 (F := Ideal) x0 x1 x3 x4 (ix2 p k)) (fun k q => x5 (ix2 k q)) p q := by
  rw [val_main_v49_apply]
  unfold Cert.Gcn.mm
  refine Finset.sum_congr rfl fun k _ => ?_
  have hl : lidx_main_v49 (ix2 p q) k = ix2 p k := by
    funext a; match a with | ⟨0, _⟩ => rfl | ⟨1, _⟩ => rfl
  have hr : ridx_main_v49 (ix2 p q) k = ix2 k q := by
    funext a; match a with | ⟨0, _⟩ => rfl | ⟨1, _⟩ => rfl
  rw [hl, hr]

/-- The third product at (p, q): layer 2's row p against the third weights' column q. -/
theorem prod3_entry (x0 : S50000x2.Idx → EReal) (x1 : IVec S2x800000 32) (x3 : S2x64.Idx → EReal) (x4 : S64.Idx → EReal)
    (x5 : S64x64.Idx → EReal) (x6 : S64.Idx → EReal) (x7 : S64x64.Idx → EReal) (p : Fin 50000) (q : Fin 64) :
    val_main_v87 (F := Ideal) x0 x1 x3 x4 x5 x6 x7 (ix2 p q)
      = Cert.Gcn.mm (fun p k => val_main_v86 (F := Ideal) x0 x1 x3 x4 x5 x6 (ix2 p k)) (fun k q => x7 (ix2 k q)) p q := by
  rw [val_main_v87_apply]
  unfold Cert.Gcn.mm
  refine Finset.sum_congr rfl fun k _ => ?_
  have hl : lidx_main_v87 (ix2 p q) k = ix2 p k := by
    funext a; match a with | ⟨0, _⟩ => rfl | ⟨1, _⟩ => rfl
  have hr : ridx_main_v87 (ix2 p q) k = ix2 k q := by
    funext a; match a with | ⟨0, _⟩ => rfl | ⟨1, _⟩ => rfl
  rw [hl, hr]

section Layers

variable (x0 : S50000x2.Idx → EReal) (x1 : IVec S2x800000 32) (x3 : S2x64.Idx → EReal) (x4 : S64.Idx → EReal)
  (x5 : S64x64.Idx → EReal) (x6 : S64.Idx → EReal) (x7 : S64x64.Idx → EReal) (x8 : S64.Idx → EReal)

/-- Layer 1 of the reference, entry by entry: the weighted neighbourhood sum of the first product. -/
theorem layer1_entry :
    (fun (p : Fin 50000) (q : Fin 64) => val_main_v48 (F := Ideal) x0 x1 x3 x4 (ix2 p q))
      = Cert.Gcn.weighted (val_main_v17 (F := Ideal) x1) (val_main_v38 (F := Ideal) x1) (val_main_v24 (F := Ideal) x1)
          (fun p => val_main_v10 (F := Ideal) x1 (ix1 p))
          (Cert.Gcn.mm (fun p k => x0 (ix2 p k)) (fun k q => x3 (ix2 k q))) (fun q => x4 (ix1 q)) := by
  funext p q
  rw [layer1_eq, refLayer_entry]
  have hm : (fun (p : Fin 50000) (k : Fin 64) => val_main_v11 (F := Ideal) x0 x3 (ix2 p k))
      = Cert.Gcn.mm (fun p k => x0 (ix2 p k)) (fun k q => x3 (ix2 k q)) := by
    funext p k; exact prod1_entry x0 x3 p k
  rw [hm]

/-- Layer 2 of the reference, entry by entry: the weighted neighbourhood sum of layer 1 times the second weights. -/
theorem layer2_entry :
    (fun (p : Fin 50000) (q : Fin 64) => val_main_v86 (F := Ideal) x0 x1 x3 x4 x5 x6 (ix2 p q))
      = Cert.Gcn.weighted (val_main_v17 (F := Ideal) x1) (val_main_v38 (F := Ideal) x1) (val_main_v24 (F := Ideal) x1)
          (fun p => val_main_v10 (F := Ideal) x1 (ix1 p))
          (Cert.Gcn.mm
            (Cert.Gcn.weighted (val_main_v17 (F := Ideal) x1) (val_main_v38 (F := Ideal) x1) (val_main_v24 (F := Ideal) x1)
              (fun p => val_main_v10 (F := Ideal) x1 (ix1 p))
              (Cert.Gcn.mm (fun p k => x0 (ix2 p k)) (fun k q => x3 (ix2 k q))) (fun q => x4 (ix1 q)))
            (fun k q => x5 (ix2 k q))) (fun q => x6 (ix1 q)) := by
  funext p q
  rw [layer2_eq, refLayer_entry]
  have hm : (fun (p : Fin 50000) (k : Fin 64) => val_main_v49 (F := Ideal) x0 x1 x3 x4 x5 (ix2 p k))
      = Cert.Gcn.mm (fun p k => val_main_v48 (F := Ideal) x0 x1 x3 x4 (ix2 p k)) (fun k q => x5 (ix2 k q)) := by
    funext p k; exact prod2_entry x0 x1 x3 x4 x5 p k
  rw [hm, layer1_entry]

/-- Layer 3 of the reference, entry by entry: the weighted neighbourhood sum of layer 2 times the third weights. -/
theorem layer3_entry :
    (fun (p : Fin 50000) (q : Fin 64) => val_main_v124 (F := Ideal) x0 x1 x3 x4 x5 x6 x7 x8 (ix2 p q))
      = Cert.Gcn.weighted (val_main_v17 (F := Ideal) x1) (val_main_v38 (F := Ideal) x1) (val_main_v24 (F := Ideal) x1)
          (fun p => val_main_v10 (F := Ideal) x1 (ix1 p))
          (Cert.Gcn.mm
            (Cert.Gcn.weighted (val_main_v17 (F := Ideal) x1) (val_main_v38 (F := Ideal) x1) (val_main_v24 (F := Ideal) x1)
              (fun p => val_main_v10 (F := Ideal) x1 (ix1 p))
              (Cert.Gcn.mm
                (Cert.Gcn.weighted (val_main_v17 (F := Ideal) x1) (val_main_v38 (F := Ideal) x1) (val_main_v24 (F := Ideal) x1)
                  (fun p => val_main_v10 (F := Ideal) x1 (ix1 p))
                  (Cert.Gcn.mm (fun p k => x0 (ix2 p k)) (fun k q => x3 (ix2 k q))) (fun q => x4 (ix1 q)))
                (fun k q => x5 (ix2 k q))) (fun q => x6 (ix1 q)))
            (fun k q => x7 (ix2 k q))) (fun q => x8 (ix1 q)) := by
  funext p q
  rw [layer3_eq, refLayer_entry]
  have hm : (fun (p : Fin 50000) (k : Fin 64) => val_main_v87 (F := Ideal) x0 x1 x3 x4 x5 x6 x7 (ix2 p k))
      = Cert.Gcn.mm (fun p k => val_main_v86 (F := Ideal) x0 x1 x3 x4 x5 x6 (ix2 p k)) (fun k q => x7 (ix2 k q)) := by
    funext p k; exact prod3_entry x0 x1 x3 x4 x5 x6 x7 p k
  rw [hm, layer2_entry]

end Layers

/-- The all-zero accumulator of the graph sums reads the extended real 0. -/
theorem pool_zeros_entry (i : S256x64.Idx) : val_main_v125 (F := Ideal) i = (0 : EReal) := by
  rw [val_main_v125_apply, val_main_cst_22_apply]
  exact Ideal.ofBits_zero_f32

/-- The graph sums at (g, k): over the nodes whose graph number is g, the sum of layer 3's entries (p, k), into a
    zero accumulator. -/
theorem pooled_entry (x0 : S50000x2.Idx → EReal) (x1 : IVec S2x800000 32) (x2 : IVec S50000 32) (x3 : S2x64.Idx → EReal)
    (x4 : S64.Idx → EReal) (x5 : S64x64.Idx → EReal) (x6 : S64.Idx → EReal) (x7 : S64x64.Idx → EReal)
    (x8 : S64.Idx → EReal) (g : Fin 256) (k : Fin 64) :
    val_main_v127 (F := Ideal) x0 x1 x2 x3 x4 x5 x6 x7 x8 (ix2 g k)
      = Cert.Gcn.pooled (val_main_v126 (F := Ideal) x2)
          (fun p q => val_main_v124 (F := Ideal) x0 x1 x3 x4 x5 x6 x7 x8 (ix2 p q)) g k := by
  unfold val_main_v127 Cert.Gcn.pooled Cert.Gcn.members
  rw [show scatter_S256x64_S50000x1_S50000x64_1_0_0_1
      = Cert.Lib.rowsScatter 256 64 50000 scatter_S256x64_S50000x1_S50000x64_1_0_0_1_wf from rfl,
    Cert.Lib.scatterAdd_rowsScatter_apply, pool_zeros_entry]

/-- The graph sizes at g: one per node whose graph number is g, into a zero accumulator. -/
theorem count_entry (x2 : IVec S50000 32) (g : Fin 256) :
    val_main_v131 (F := Ideal) x2 (ix1 g) = Cert.Gcn.count (val_main_v126 (F := Ideal) x2) g := by
  have h0 : val_main_v129 (F := Ideal) (ix1 g) = (0 : EReal) := by
    rw [val_main_v129_apply, val_main_cst_24_apply]
    exact Ideal.ofBits_zero_f32
  have h1 : ∀ e : Fin 50000, val_main_v128 (F := Ideal) (ix1 e) = (1 : EReal) := by
    intro e
    rw [val_main_v128_apply, val_main_cst_23_apply]
    exact Cert.Lib.one_word_f32
  unfold val_main_v131 Cert.Gcn.count Cert.Gcn.members
  rw [show scatter_S256_S50000x1_S50000_n_0_0_1
      = Cert.Lib.vecScatter 256 50000 scatter_S256_S50000x1_S50000_n_0_0_1_wf from rfl,
    Cert.Lib.scatterAdd_vecScatter_apply, h0, Finset.sum_congr rfl fun e _ => h1 e]
  rfl

/-- The divisor of the mean, stretched along the feature axis, at (g, k): the graph's size clipped below at one. -/
theorem clipped_entry (x2 : IVec S50000 32) (g : Fin 256) (k : Fin 64) :
    val_main_v134 (F := Ideal) x2 (ix2 g k) = max 1 (Cert.Gcn.count (val_main_v126 (F := Ideal) x2) g) := by
  have hi : idx_main_v133 (idx_main_v134 (ix2 g k)) = ix1 g := by
    funext a; match a with | ⟨0, _⟩ => rfl
  rw [val_main_v134_apply, val_main_v133_apply, hi, val_main_v132_apply, val_main_call3_v1_apply,
    val_main_call3_v0_apply, val_main_cst_25_apply, count_entry]
  show max (Ideal.ofBits .f32 0x3F800000#32) (Cert.Gcn.count (val_main_v126 (F := Ideal) x2) g) = _
  rw [Cert.Lib.one_word_f32]

/-- The reference's result at `(g, t)` is the weighted-sum network of the argument arrays, at the reference's own
    index columns and scale vector. -/
theorem ref_entry (x0 : S50000x2.Idx → EReal) (x1 : IVec S2x800000 32) (x2 : IVec S50000 32) (x3 : S2x64.Idx → EReal)
    (x4 : S64.Idx → EReal) (x5 : S64x64.Idx → EReal) (x6 : S64.Idx → EReal) (x7 : S64x64.Idx → EReal)
    (x8 : S64.Idx → EReal) (x9 : S64x2.Idx → EReal) (x10 : S2.Idx → EReal) (g : Fin 256) (t : Fin 2) :
    val_main_v139 (F := Ideal) x0 x1 x2 x3 x4 x5 x6 x7 x8 x9 x10 (ix2 g t)
      = Cert.Gcn.refNet (val_main_v17 (F := Ideal) x1) (val_main_v38 (F := Ideal) x1) (val_main_v24 (F := Ideal) x1)
          (val_main_v126 (F := Ideal) x2) (fun p => val_main_v10 (F := Ideal) x1 (ix1 p))
          (fun p k => x0 (ix2 p k)) (fun k q => x3 (ix2 k q)) (fun q => x4 (ix1 q))
          (fun k q => x5 (ix2 k q)) (fun q => x6 (ix1 q)) (fun k q => x7 (ix2 k q)) (fun q => x8 (ix1 q))
          (fun k t => x9 (ix2 k t)) (fun t => x10 (ix1 t)) g t := by
  have hb : val_main_v138 (F := Ideal) x10 (ix2 g t) = x10 (ix1 t) := by
    have hi : idx_main_v137 (idx_main_v138 (ix2 g t)) = ix1 t := by
      funext a; match a with | ⟨0, _⟩ => rfl
    rw [val_main_v138_apply, val_main_v137_apply, hi]
  have hk : ∀ k : Fin 64,
      val_main_v135 (F := Ideal) x0 x1 x2 x3 x4 x5 x6 x7 x8 (lidx_main_v136 (ix2 g t) k) * x9 (ridx_main_v136 (ix2 g t) k)
        = Ideal.div (Cert.Gcn.pooled (val_main_v126 (F := Ideal) x2)
              (fun p q => val_main_v124 (F := Ideal) x0 x1 x3 x4 x5 x6 x7 x8 (ix2 p q)) g k)
            (max 1 (Cert.Gcn.count (val_main_v126 (F := Ideal) x2) g)) * x9 (ix2 k t) := by
    intro k
    have hl : lidx_main_v136 (ix2 g t) k = ix2 g k := by
      funext a; match a with | ⟨0, _⟩ => rfl | ⟨1, _⟩ => rfl
    have hr : ridx_main_v136 (ix2 g t) k = ix2 k t := by
      funext a; match a with | ⟨0, _⟩ => rfl | ⟨1, _⟩ => rfl
    rw [hl, hr, val_main_v135_apply, pooled_entry, clipped_entry]
    rfl
  unfold Cert.Gcn.refNet Cert.Gcn.headR
  rw [← layer3_entry x0 x1 x3 x4 x5 x6 x7 x8, val_main_v139_apply, val_main_v136_apply, hb,
    Finset.sum_congr rfl fun k _ => hk k]
  rfl

end Cert.ReferenceIdeal.RefValue

end
-- ==== Proof.LibBatchNormForms.lean ====
/-
  Two spellings of batch normalisation over a finite set of rows, and that they agree.

  For a column `h : ι → ℝ` over `n = |ι|` rows, with mean `μ = (∑ h) / n`:
  * the mean of squares minus the square of the mean is the mean of the squared deviations,
    `(∑ h²) / n − μ² = (∑ (h − μ)²) / n`  (`Cert.Lib.meanSq_sub_sq_mean`);
  * hence "scale and shift" `h · (γ · r) + (β − μ · (γ · r))` with `r = (√(E[h²] − μ² + ε))⁻¹` is
    "centre, scale, shift" `(h − μ) · (√(E[(h − μ)²] + ε))⁻¹ · γ + β`  (`Cert.Lib.bn_real`).
  On the extended reals, with the printed operations (`Ideal.div` by the row count, `Ideal.rsqrt`), the same holds for a
  column whose entries are all real, real `γ`, `β`, and a positive real `ε`; and the common value is real
  (`Cert.Lib.bn_ereal`). Distributivity is what is used, so the entries must be real: at an infinite entry both sides are
  junk of different kinds.
-/
import Idealize.ShloMosaic.PureOps.Ideal
import Mathlib.Algebra.BigOperators.Ring.Finset
import Mathlib.Tactic.Ring
import Mathlib.Tactic.FieldSimp
import Mathlib.Tactic.Positivity

noncomputable section

namespace Cert.Lib

open Idealize.ShloMosaic
open scoped BigOperators

variable {ι : Type*} [Fintype ι]

/-- The mean of squares minus the squared mean is the mean squared deviation. -/
theorem meanSq_sub_sq_mean (h : ι → ℝ) (n : ℝ) (hn : n ≠ 0) (hcard : (Fintype.card ι : ℝ) = n) :
    (∑ p, h p * h p) / n - (∑ p, h p) / n * ((∑ p, h p) / n)
      = (∑ p, (h p - (∑ p, h p) / n) * (h p - (∑ p, h p) / n)) / n := by
  set μ : ℝ := (∑ p, h p) / n with hμ
  have hS : ∑ p, h p = n * μ := by rw [hμ]; field_simp
  have hdev : ∑ p, (h p - μ) * (h p - μ) = (∑ p, h p * h p) - 2 * μ * (∑ p, h p) + n * (μ * μ) := by
    have : ∀ p, (h p - μ) * (h p - μ) = h p * h p - 2 * μ * h p + μ * μ := fun p => by ring
    simp only [this, Finset.sum_add_distrib, Finset.sum_sub_distrib, ← Finset.mul_sum, Finset.sum_const, Finset.card_univ,
      nsmul_eq_mul, hcard]
    ring
  rw [hdev, hS]
  field_simp
  ring

/-- The mean squared deviation is not negative. -/
theorem meanDev_nonneg (h : ι → ℝ) (n : ℝ) (hn : 0 < n) :
    0 ≤ (∑ p, (h p - (∑ p, h p) / n) * (h p - (∑ p, h p) / n)) / n :=
  div_nonneg (Finset.sum_nonneg fun p _ => mul_self_nonneg _) hn.le

/-- Scale-and-shift is centre-scale-shift, over the reals. -/
theorem bn_real (h : ι → ℝ) (n : ℝ) (hn : n ≠ 0) (hcard : (Fintype.card ι : ℝ) = n) (γ β ε : ℝ) (p : ι) :
    h p * (γ * (Real.sqrt ((∑ p, h p * h p) / n - (∑ p, h p) / n * ((∑ p, h p) / n) + ε))⁻¹)
        + (β - (∑ p, h p) / n * (γ * (Real.sqrt ((∑ p, h p * h p) / n - (∑ p, h p) / n * ((∑ p, h p) / n) + ε))⁻¹))
      = (h p - (∑ p, h p) / n) * (Real.sqrt ((∑ p, (h p - (∑ p, h p) / n) * (h p - (∑ p, h p) / n)) / n + ε))⁻¹ * γ + β := by
  rw [meanSq_sub_sq_mean h n hn hcard]
  ring

/-- A finite sum of coerced reals is the coerced sum. -/
theorem coe_sum_univ (f : ι → ℝ) : ((∑ p, f p : ℝ) : EReal) = ∑ p, (f p : EReal) := by
  classical
  refine Finset.induction_on (Finset.univ : Finset ι) (by simp) ?_
  intro a s ha ih
  rw [Finset.sum_insert ha, Finset.sum_insert ha, EReal.coe_add, ih]

/-- The reciprocal square root of a positive real is the real one. -/
theorem rsqrt_coe_pos (v : ℝ) (hv : 0 < v) : Ideal.rsqrt (v : EReal) = (((Real.sqrt v)⁻¹ : ℝ) : EReal) := by
  rw [Ideal.rsqrt_coe, if_neg (not_lt.mpr hv.le), if_neg hv.ne']

/-- Division by a nonzero real of a real is the real quotient. -/
theorem div_coe_coe (a n : ℝ) (hn : n ≠ 0) : Ideal.div (a : EReal) (n : EReal) = ((a / n : ℝ) : EReal) := by
  rw [Ideal.div_coe hn, ← EReal.coe_mul]; congr 1; ring

/-- The two spellings on the extended reals, for a real column: both are the coerced real value. -/
theorem bn_ereal (h : ι → EReal) (hr : ι → ℝ) (hh : ∀ p, h p = (hr p : EReal)) (n : ℝ) (hn : 0 < n)
    (hcard : (Fintype.card ι : ℝ) = n) (γ β ε : ℝ) (hε : 0 < ε) (p : ι) :
    h p * ((γ : EReal) * Ideal.rsqrt (Ideal.div (∑ p, h p * h p) (n : EReal)
            - Ideal.div (∑ p, h p) (n : EReal) * Ideal.div (∑ p, h p) (n : EReal) + (ε : EReal)))
        + ((β : EReal) - Ideal.div (∑ p, h p) (n : EReal) * ((γ : EReal) * Ideal.rsqrt (Ideal.div (∑ p, h p * h p) (n : EReal)
            - Ideal.div (∑ p, h p) (n : EReal) * Ideal.div (∑ p, h p) (n : EReal) + (ε : EReal))))
      = (((hr p - (∑ p, hr p) / n) * (Real.sqrt ((∑ p, (hr p - (∑ p, hr p) / n) * (hr p - (∑ p, hr p) / n)) / n + ε))⁻¹ * γ + β : ℝ) : EReal)
    ∧ (h p - Ideal.div (0 + ∑ p, h p) (n : EReal))
          * Ideal.rsqrt (Ideal.div (0 + ∑ p, (h p - Ideal.div (0 + ∑ p, h p) (n : EReal)) * (h p - Ideal.div (0 + ∑ p, h p) (n : EReal))) (n : EReal) + (ε : EReal))
          * (γ : EReal) + (β : EReal)
      = (((hr p - (∑ p, hr p) / n) * (Real.sqrt ((∑ p, (hr p - (∑ p, hr p) / n) * (hr p - (∑ p, hr p) / n)) / n + ε))⁻¹ * γ + β : ℝ) : EReal) := by
  have hn' : n ≠ 0 := hn.ne'
  have hfun : h = fun p => (hr p : EReal) := funext hh
  subst hfun
  have hS : (∑ p, (hr p : EReal)) = ((∑ p, hr p : ℝ) : EReal) := (coe_sum_univ hr).symm
  have hQ : (∑ p, (hr p : EReal) * (hr p : EReal)) = ((∑ p, hr p * hr p : ℝ) : EReal) := by
    rw [coe_sum_univ]; exact Finset.sum_congr rfl fun p _ => (EReal.coe_mul _ _).symm
  constructor
  · rw [hS, hQ, div_coe_coe _ _ hn', div_coe_coe _ _ hn', ← EReal.coe_mul, ← EReal.coe_sub, ← EReal.coe_add,
      rsqrt_coe_pos _ (by
        rw [meanSq_sub_sq_mean hr n hn' hcard]
        exact add_pos_of_nonneg_of_pos (meanDev_nonneg hr n hn) hε),
      ← EReal.coe_mul, ← EReal.coe_mul, ← EReal.coe_mul, ← EReal.coe_sub, ← EReal.coe_add, bn_real hr n hn' hcard]
  · rw [zero_add, hS, div_coe_coe _ _ hn']
    have hD : (∑ p, ((hr p : EReal) - (((∑ p, hr p) / n : ℝ) : EReal)) * ((hr p : EReal) - (((∑ p, hr p) / n : ℝ) : EReal)))
        = ((∑ p, (hr p - (∑ p, hr p) / n) * (hr p - (∑ p, hr p) / n) : ℝ) : EReal) := by
      rw [coe_sum_univ]; exact Finset.sum_congr rfl fun p _ => by rw [← EReal.coe_sub, ← EReal.coe_mul]
    rw [zero_add, hD, div_coe_coe _ _ hn', ← EReal.coe_add,
      rsqrt_coe_pos _ (add_pos_of_nonneg_of_pos (meanDev_nonneg hr n hn) hε),
      ← EReal.coe_sub, ← EReal.coe_mul, ← EReal.coe_mul, ← EReal.coe_add]

end Cert.Lib

end
-- ==== Proof.RefScale.lean ====
/-
  Three facts about the reference's per-node scale and its wrapped edge targets.

  The scale is `d(p) = rsqrt(deg(p))` with `deg(p) = (0 + Σ_{e : target(e) = p} 1) + 1`: a count plus one is a positive
  real, so `d(p)` is the coerced real `(√(count + 1))⁻¹`, which is nonnegative and finite.

  The wrapped target of an edge is `t + 50000` if the target `t` is negative and `t` otherwise. An edge landing on node
  `p` has `t = p ≥ 0`, so the wrap leaves it alone and clamping `p < 50000` into `[0, 50000)` leaves it alone too.
-/
import proofs.«104686_j37598143709432_2_alg».proof.Proof.Gen.ReferenceIdeal.Read
import proofs.«104686_j37598143709432_2_alg».proof.Proof.GcnSpec
import proofs.«104686_j37598143709432_2_alg».proof.Proof.LibScatterVec
import proofs.«104686_j37598143709432_2_alg».proof.Proof.LibNodeMean
import proofs.«104686_j37598143709432_2_alg».proof.Proof.LibBatchNormForms
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Read Idealize.ShloMosaic Idealize.ShloMosaic.ValueIdx

/-- A sum of ones over a finite set is its number of elements, as a real. -/
private theorem sum_ones {ι : Type} (s : Finset ι) : (∑ _e ∈ s, (1 : EReal)) = ((s.card : ℝ) : EReal) := by
  classical
  induction s using Finset.induction_on with
  | empty => simp
  | insert a s ha ih =>
    rw [Finset.sum_insert ha, ih, Finset.card_insert_of_notMem ha, Nat.cast_add, Nat.cast_one, add_comm, EReal.coe_add, EReal.coe_one]

/-- The added constant vector is one at every node. -/
private theorem v8_one (p : Fin 50000) : val_main_v8 (F := Ideal) (ix1 p) = (1 : EReal) := by
  rw [val_main_v8_apply, val_main_cst_1_apply]
  exact Cert.Lib.one_word_f32

/-- The accumulated update vector is one at every edge. -/
private theorem v4_one (e : Fin 800000) : val_main_v4 (F := Ideal) (ix1 e) = (1 : EReal) := by
  rw [val_main_v4_apply, val_main_cst_apply]
  exact Cert.Lib.one_word_f32

/-- The accumulator starts at zero at every node. -/
private theorem v5_zero (p : Fin 50000) : val_main_v5 (F := Ideal) (ix1 p) = (0 : EReal) := by
  rw [val_main_v5_apply, val_main_cst_0_apply]
  exact Ideal.ofBits_zero_f32

/-- The accumulation of ones at node `p` is the number of edges whose target, read signed and not clamped, is `p`. -/
private theorem v7_count (x1 : IVec S2x800000 32) (p : Fin 50000) :
    val_main_v7 (F := Ideal) x1 (ix1 p)
      = (((Finset.univ.filter (fun e : Fin 800000 => (val_main_v6 (F := Ideal) x1 (ix2 e (0 : Fin 1))).toInt = (p.val : ℤ))).card : ℝ) : EReal) := by
  show Host.scatterAdd (F := Ideal) (φ := .f32) (Cert.Lib.vecScatter 50000 800000 Facts₀.scatter_S50000_S800000x1_S800000_n_0_0_1_wf)
      (val_main_v5 (F := Ideal)) (val_main_v6 (F := Ideal) x1) (val_main_v4 (F := Ideal)) (ix1 p) = _
  rw [Cert.Lib.scatterAdd_vecScatter_apply, v5_zero, zero_add]
  rw [Finset.sum_congr rfl (fun e _ => v4_one e), sum_ones]

/-- The scale at node `p` is the real reciprocal square root of a positive real: the edge count at `p` plus one. -/
theorem scale_eq (x1 : IVec S2x800000 32) (p : Fin 50000) :
    ∃ v : ℝ, 0 < v ∧ val_main_v10 (F := Ideal) x1 (ix1 p) = (((Real.sqrt v)⁻¹ : ℝ) : EReal) := by
  refine ⟨((Finset.univ.filter (fun e : Fin 800000 => (val_main_v6 (F := Ideal) x1 (ix2 e (0 : Fin 1))).toInt = (p.val : ℤ))).card : ℝ) + 1, by positivity, ?_⟩
  rw [val_main_v10_apply, val_main_v9_apply, Ideal.hostUnary_rsqrt_def, Ideal.addf_def, v7_count, v8_one]
  have hc : ∀ c : ℝ, (c : EReal) + 1 = ((c + 1 : ℝ) : EReal) := fun c => by rw [EReal.coe_add, EReal.coe_one]
  rw [hc]
  exact Cert.Lib.rsqrt_coe_pos _ (by positivity)

/-- The scale vector is nonnegative: it is the reciprocal square root of a count plus one. -/
theorem scale_nonneg (x1 : IVec S2x800000 32) (p : Fin 50000) : 0 ≤ val_main_v10 (F := Ideal) x1 (ix1 p) := by
  obtain ⟨v, hv, h⟩ := scale_eq x1 p
  rw [h]
  exact EReal.coe_nonneg.mpr (inv_nonneg.mpr (Real.sqrt_nonneg v))

/-- The scale vector is finite. -/
theorem scale_ne_top (x1 : IVec S2x800000 32) (p : Fin 50000) : val_main_v10 (F := Ideal) x1 (ix1 p) ≠ ⊤ := by
  obtain ⟨v, hv, h⟩ := scale_eq x1 p
  rw [h]
  exact EReal.coe_ne_top _

/-- The target column read at edge `e` is the target vector at `e`. -/
private theorem v38_at (x1 : IVec S2x800000 32) (e : Fin 800000) :
    val_main_v38 (F := Ideal) x1 (ix2 e (0 : Fin 1)) = val_main_v3 (F := Ideal) x1 (ix1 e) := by
  rw [val_main_v38_apply]
  congr 1
  funext a
  match a with
  | ⟨0, _⟩ => rfl

/-- The wrapped target column read at edge `e`: the target `t` itself unless it is negative, then `t + 50000`. -/
private theorem v24_at (x1 : IVec S2x800000 32) (e : Fin 800000) :
    val_main_v24 (F := Ideal) x1 (ix2 e (0 : Fin 1))
      = Scalar.select (IntOp.cmpi .slt (val_main_v3 (F := Ideal) x1 (ix1 e)) 0#32)
          (IntOp.addi (val_main_v3 (F := Ideal) x1 (ix1 e)) 50000#32) (val_main_v3 (F := Ideal) x1 (ix1 e)) := by
  have hi : idx_main_v24 (ix2 e (0 : Fin 1)) = ix1 e := by
    funext a
    match a with
    | ⟨0, _⟩ => rfl
  rw [val_main_v24_apply, hi, val_main_v23_apply, val_main_v20_apply, val_main_v22_apply, val_main_v19_apply,
    val_main_v21_apply, val_main_c_3_apply, val_main_c_4_apply]

/-- A word whose signed value is not negative is not signed-less-than zero, so the wrap leaves it alone. -/
private theorem select_slt_zero_of_nonneg (t a : BitVec 32) (ht : 0 ≤ t.toInt) :
    Scalar.select (IntOp.cmpi .slt t 0#32) a t = t := by
  have h : t.slt 0#32 = false := by
    rw [BitVec.slt, BitVec.toInt_zero]
    exact decide_eq_false (by omega)
  show (if BitVec.ofBool (t.slt 0#32) = 1 then a else t) = t
  rw [h]
  rfl

/-- An edge that lands on node `p` (its target, read signed and not clamped, is `p`) has `p` as its clamped,
    wrapped target row. -/
theorem wrapped_target (x1 : IVec S2x800000 32) (p : Fin 50000) (e : Fin 800000)
    (he : e ∈ Cert.Gcn.landing (val_main_v38 (F := Ideal) x1) p) :
    Cert.Gcn.row (val_main_v24 (F := Ideal) x1) e = p := by
  have ht : (val_main_v3 (F := Ideal) x1 (ix1 e)).toInt = (p.val : ℤ) := by
    have h := (Finset.mem_filter.mp he).2
    rwa [v38_at] at h
  have hp : p.val < 50000 := p.isLt
  refine Fin.ext ?_
  show min (val_main_v24 (F := Ideal) x1 (ix2 e (0 : Fin 1))).toInt.toNat (50000 - 1) = p.val
  rw [v24_at, select_slt_zero_of_nonneg _ _ (by omega), ht]
  omega

end Cert.ReferenceIdeal.RefValue

end
-- ==== Proof.SharedHost.lean ====
/-
  The host arrays the two programs share — the wrapped source column, the target column, the graph-number column and
  the per-node scale — are the same functions of the argument arrays in both programs: the same operations in the
  same order.
-/
import proofs.«104686_j37598143709432_2_alg».proof.Proof.KernelHost
import proofs.«104686_j37598143709432_2_alg».proof.Proof.Gen.ReferenceIdeal.Read

set_option maxRecDepth 16384

noncomputable section

namespace Cert.Shared

open Idealize.ShloMosaic Idealize.ShloMosaic.ValueIdx

/-- The wrapped sources as a column: the same term in both programs. -/
theorem srcCol_eq (x1 : IVec ⟨2, ![2, 800000]⟩ 32) :
    Cert.KernelIdeal.HostValue.srcCol x1 = Cert.ReferenceIdeal.Read.val_main_v17 (F := Ideal) x1 := rfl

/-- The targets as a column. -/
theorem dstCol_eq (x1 : IVec ⟨2, ![2, 800000]⟩ 32) :
    Cert.KernelIdeal.HostValue.dstCol x1 = Cert.ReferenceIdeal.Read.val_main_v38 (F := Ideal) x1 := rfl

/-- The graph numbers as a column. -/
theorem batCol_eq (x2 : IVec ⟨1, ![50000]⟩ 32) :
    Cert.KernelIdeal.HostValue.batCol x2 = Cert.ReferenceIdeal.Read.val_main_v126 (F := Ideal) x2 := rfl

/-- The per-node scale. -/
theorem scaleVec_eq (x1 : IVec ⟨2, ![2, 800000]⟩ 32) :
    Cert.KernelIdeal.HostValue.scaleVec x1 = Cert.ReferenceIdeal.Read.val_main_v10 (F := Ideal) x1 := rfl

end Cert.Shared

end
-- ==== Proof.Bridge.lean ====
/-
  The two programs compute the same result.

  The idealized kernel's result is the scaled-then-summed network of the argument arrays, the reference's the
  weighted-sum network, at the same index columns and the same per-node scale (the host operations that make them are
  the same in both programs). The scale is the reciprocal square root of a count plus one, a nonnegative real; an
  edge that lands on a node has that node as its wrapped, clamped target. Under these two facts the networks agree:
  a nonnegative finite factor distributes over the neighbourhood sum.
-/
import proofs.«104686_j37598143709432_2_alg».proof.Proof.KernelEntry
import proofs.«104686_j37598143709432_2_alg».proof.Proof.RefEntry
import proofs.«104686_j37598143709432_2_alg».proof.Proof.RefScale
import proofs.«104686_j37598143709432_2_alg».proof.Proof.SharedHost
import proofs.«104686_j37598143709432_2_alg».proof.Proof.GcnSpec

set_option maxRecDepth 16384

noncomputable section

namespace Cert.Bridge

open Idealize.ShloMosaic Idealize.ShloMosaic.TcCoe Idealize.ShloMosaic.ValueIdx Idealize.SL.Sem
open Cert.KernelIdeal.HostValue Cert.ReferenceIdeal.Read Cert.ReferenceIdeal.RefValue

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The idealized kernel's result array is the reference's result term at the kernel's argument arrays. -/
theorem result_eq :
    Cert.KernelIdeal.Gen.W10 m ρ c (Proc.devRef .tc Cert.KernelIdeal.main_v58)
      = val_main_v139 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9))
          (m ((c : Thread Cert.KernelIdeal.nD Cert.KernelIdeal.τ).loc Cert.KernelIdeal.main_arg10)) := by
  funext j
  obtain ⟨g, t, rfl⟩ : ∃ (g : Fin 256) (t : Fin 2), j = ix2 g t := ⟨j 0, j 1, eq_ix2 j⟩
  rw [ref_entry]
  refine (kernel_entry m ρ c g t).trans ?_
  rw [Cert.Shared.srcCol_eq, Cert.Shared.dstCol_eq, Cert.Shared.batCol_eq]
  unfold dK
  rw [Cert.Shared.scaleVec_eq]
  exact congrFun (congrFun (Cert.Gcn.kerNet_eq_refNet _ _ _ _ _
    (fun p => scale_nonneg _ p) (fun p => scale_ne_top _ p) (fun p e he => wrapped_target _ p e he)
    _ _ _ _ _ _ _ _ _) g) t

end Cert.Bridge

end
-- ==== Proof.lean ====
/-
  A three-layer graph convolution network with mean pooling and a final linear map: the kernel program (five kernel
  launches — a scaled product, two fused combine-and-product layers, a final combine, a pool-and-linear head — among
  host lookups and segment sums) against its plain reference, equal as extended reals.

  The kernel folds the symmetric edge normalisation D^(-1/2) (A + I) D^(-1/2) into node-side scalings: each layer
  scales the product rows by d = deg^(-1/2), sums the scaled rows of the neighbours and of the node itself, and scales
  the sum by d once more; the reference weights each edge by d(source) · d(target) and adds the self term d². Since d is
  a nonnegative real (the reciprocal square root of a count plus one), multiplication by it distributes over the sums
  of extended reals, and the two arrangements agree entry by entry, with no finiteness of the inputs needed. The
  matrix products agree because a change of float format is the identity on the extended reals; the head differs only
  in the order of the arguments of a maximum.

  The three frames are the generated ones (the reference's is its run with the result dropped); the idealization
  rewrote nothing.
-/
import proofs.«104686_j37598143709432_2_alg».proof.Defs
import proofs.«104686_j37598143709432_2_alg».proof.Proof.Gen.Kernel
import proofs.«104686_j37598143709432_2_alg».proof.Proof.Gen.Kernel.Frame
import proofs.«104686_j37598143709432_2_alg».proof.Proof.Gen.KernelIdeal
import proofs.«104686_j37598143709432_2_alg».proof.Proof.Gen.KernelIdeal.Frame
import proofs.«104686_j37598143709432_2_alg».proof.Proof.Gen.ReferenceIdeal
import proofs.«104686_j37598143709432_2_alg».proof.Proof.Gen.ReferenceIdeal.Run
import proofs.«104686_j37598143709432_2_alg».proof.Proof.Gen.ReferenceIdeal.Read
import proofs.«104686_j37598143709432_2_alg».proof.Proof.Gen.Pre_finite_inputs
import proofs.«104686_j37598143709432_2_alg».proof.Proof.KernelRun
import proofs.«104686_j37598143709432_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run and end with the same result: the kernel's run names its
    result array, the reference's run its result term, and the two are one function of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v58),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v139_eq, h0, h1, h2, h3, h4, h5, h6, h7, h8, h9, h10]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
